-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x1 : Shape := ⟨2, ![800000, 1]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S50000x128 .f32) (main_arg2 : FVec F S800000x1 .f32) (main_arg3 : FVec F S128x128 .f32) (main_arg4 : FVec F S128 .f32) (main_arg5 : FVec F S128 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000x1 .f32 := Host.absf main_arg2
  let main_cst_2 : FVec F S_ .f32 := constant S_ .f32 0x7F800000#32
  let main_v10 : FVec F S800000x1 .f32 := broadcastInDim S800000x1 ![] bcast_S_S800000x1 main_cst_2
  let main_v11 : IVec S800000x1 1 := cmpf .olt main_v9 main_v10
  let main_c_3 : IVec S_ 1 := constantI S_ 1 1#1
  let main_v12 : IVec S_ 1 := (fun x v => Host.reduce IntOp.andi x v reducesTo_S800000x1_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S800000x1 : Shape := ⟨2, ![800000, 1]⟩
abbrev S128x128 : Shape := ⟨2, ![128, 128]⟩
abbrev S128 : Shape := ⟨1, ![128]⟩
abbrev S800000 : Shape := ⟨1, ![800000]⟩
abbrev S_ : Shape := ⟨0, ![]⟩
abbrev S800000x128 : Shape := ⟨2, ![800000, 128]⟩
abbrev S1x128 : Shape := ⟨2, ![1, 128]⟩
abbrev S5000x128 : Shape := ⟨2, ![5000, 128]⟩
abbrev S2000x128 : Shape := ⟨2, ![2000, 128]⟩

abbrev nBuf : Space → Nat
  | .hbm => 29
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S128x128, .f32⟩
  | .hbm, ⟨28, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  shapeCasts_S128_S1x128 : S128.ShapeCasts S1x128
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12_0) S1x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12_1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12_1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x1 : Shape := ⟨2, ![800000, 1]⟩
abbrev S128x128 : Shape := ⟨2, ![128, 128]⟩
abbrev S128 : Shape := ⟨1, ![128]⟩
abbrev S800000 : Shape := ⟨1, ![800000]⟩
abbrev S_ : Shape := ⟨0, ![]⟩
abbrev S800000x128 : Shape := ⟨2, ![800000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S128x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x128_S128x128_1_0 : S128x128.Transposes [1, 0] S128x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.WordStatsRuns.lean ====
/-
  The statistics kernel (the first of the two kernel regions), run once on arbitrary whole staging buffers.

  The grid has ten points; each point sees a block of 5000 rows. Two scratch rows of 128 entries carry the running column
  sums of the entries and of their squares from point to point. Three control cases occur:
    * the first point: the two scratch rows are reset to zero, then the block's column sums are added;
    * a middle point: the block's column sums are added to what the point before left;
    * the last point: as a middle point, and then the two output rows are written from the totals — the first is the
      total of the entries scaled by the reciprocal of the row count, the second the scaled total of the squares less the
      square of the first.
  At the first nine points the two output rows are not touched and are not written back.
  For each case the run below says, on whole buffers, which stores each buffer ends with (as a list of pieces, last first).
-/
import proofs.«159637_j21912923144342_2_alg».proof.Proof.Gen.Kernel.Launch
import proofs.«159637_j21912923144342_2_alg».proof.Proof.Gen.Kernel.Skeleton
import proofs.«159637_j21912923144342_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid -/

/-- "This is the first point": the body's first conditional, as its scalar chain over the grid coordinate. -/
abbrev isFirst (i : grid0.Coords) : Prop :=
  (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 10 = 0 :=
  (by decide +kernel : ∀ t : Fin grid0.N, isFirst (grid0.coords t) ↔ t.val % 10 = 0)

/-- "This is the last point": the body's second conditional. -/
abbrev isLast (i : grid0.Coords) : Prop := k0_cond2 i = 1#1
/-- It holds at point 9 only. -/
theorem isLast_iff : ∀ t : Fin cfg0.N, isLast (grid0.coords t) ↔ t.val % 10 = 9 :=
  (by decide +kernel : ∀ t : Fin grid0.N, isLast (grid0.coords t) ↔ t.val % 10 = 9)

/-! ## Where the output rows are idle -/

theorem live_in : ∀ t : Fin cfg0.N, cfg0.idle 0 (grid0.coords t) = false := by decide +kernel
theorem idle_mean : ∀ t : Fin cfg0.N, ¬isLast (grid0.coords t) → cfg0.idle 1 (grid0.coords t) = true := by decide +kernel
theorem idle_var : ∀ t : Fin cfg0.N, ¬isLast (grid0.coords t) → cfg0.idle 2 (grid0.coords t) = true := by decide +kernel
theorem noFlush_mean : ∀ t : Fin cfg0.N, ¬isLast (grid0.coords t) → (cfg0.win 1).flush t = false := by decide +kernel
theorem noFlush_var : ∀ t : Fin cfg0.N, ¬isLast (grid0.coords t) → (cfg0.win 2).flush t = false := by decide +kernel
theorem live_mean : ∀ t : Fin cfg0.N, isLast (grid0.coords t) → cfg0.idle 1 (grid0.coords t) = false := by decide +kernel
theorem live_var : ∀ t : Fin cfg0.N, isLast (grid0.coords t) → cfg0.idle 2 (grid0.coords t) = false := by decide +kernel

/-! ## The buffers the body is called with -/

abbrev mIn (t : Fin cfg0.N) : Memref sig .tc .vmem S5000x128 .f32 := win0_0.stage (cfg0.slots t 0)
abbrev hIn (t : Fin cfg0.N) : (mIn t).IsWhole := hstage0_0 ((cfg0.slots t 0).cast nbuf0_0)
abbrev mMean (t : Fin cfg0.N) : Memref sig .tc .vmem S1x128 .f32 := win0_1.stage (cfg0.slots t 1)
abbrev hMean (t : Fin cfg0.N) : (mMean t).IsWhole := hstage0_1 ((cfg0.slots t 1).cast nbuf0_1)
abbrev mVar (t : Fin cfg0.N) : Memref sig .tc .vmem S1x128 .f32 := win0_2.stage (cfg0.slots t 2)
abbrev hVar (t : Fin cfg0.N) : (mVar t).IsWhole := hstage0_2 ((cfg0.slots t 2).cast nbuf0_2)
/-- The two scratch rows: the running sum and the running sum of squares. -/
abbrev mSum : Memref sig .tc .vmem S1x128 .f32 := Memref.whole cc0_scratch0
abbrev mSq : Memref sig .tc .vmem S1x128 .f32 := Memref.whole cc0_scratch1
/-- Views through which the rows' contents are stated. -/
abbrev vSum : View sig .tc .vmem S1x128 .f32 := mSum.view
abbrev vSq : View sig .tc .vmem S1x128 .f32 := mSq.view
abbrev vMean : View sig .tc .vmem S1x128 .f32 := (Memref.whole cc0_stg1_0 : Memref sig .tc .vmem S1x128 .f32).view
abbrev vVar : View sig .tc .vmem S1x128 .f32 := (Memref.whole cc0_stg2_0 : Memref sig .tc .vmem S1x128 .f32).view

/-! ## The three runs -/

set_option maxHeartbeats 1000000 in
/-- The first point: the scratch rows at anything on entry; the output rows handed back untouched. -/
noncomputable def runFirst (c : Dev nD) (i : grid0.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : isFirst i) (hc1 : ¬isLast i) (x0 : Vec F S5000x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A middle point: the scratch rows at what the point before left; the output rows handed back untouched. -/
noncomputable def runMid (c : Dev nD) (i : grid0.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : ¬isFirst i) (hc1 : ¬isLast i) (x0 : Vec F S5000x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the scratch rows at what the point before left; the output rows at anything on entry, written whole. -/
noncomputable def runLast (c : Dev nD) (i : grid0.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : ¬isFirst i) (hc1 : isLast i) (x0 : Vec F S5000x128 .f32) (xs0 xs1 : Vec F S1x128 .f32) :
    Σ' (L1 : List (View.Piece (Elt F) S1x128 .f32)) (L2 : List (View.Piece (Elt F) S1x128 .f32)) (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Frames

end
-- ==== Proof.WordStatsFrame.lean ====
/-
  The statistics region as a whole: what its scratch rows and output rows hold after each grid point, the region's
  invariant, and the obligation of its body at every point.

  After point `n` the two scratch rows hold the column sums (of the entries, of their squares) of the first `n + 1` blocks
  of the input array, accumulated block by block from zero; after the last point the two output rows hold the scaled
  totals. The invariant between points is: the two scratch rows at exactly those contents (at anything before the first
  point), every other scoped buffer at anything, the generator register at some state. The statements are over the
  stores found by the three runs of the body.
-/
import proofs.«159637_j21912923144342_2_alg».proof.Proof.WordStatsRuns

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block at a point -/

/-- Window `w`'s block at point `t`, read off its array as the region finds it. -/
def blkAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point. -/
theorem before_in_of {c : Dev nD} (dat : Dat τ (Elt F) Unit ℕ (UR sig nD τ) ℕ cfg0 c) (hA : dat.A 0 = V c (Pipeline.arrRef spec0 0))
    (hafter : ∀ t, dat.after 0 t = blkAt V c 0 t) (t : Fin cfg0.N) (d) : dat.before 0 t d = blkAt V c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-! ## The scoped buffers the region does not use -/

/-- The staging buffers of the other region: scoped, untouched here, each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the two scratch rows named. -/
theorem PhiA0_eq (c : Dev nD) :
    (Pipeline.ΦA spec0 c : sProp 𝕄)
      = iprop(((∃ d, owns (c : Thread nD τ) mSum fullShare d) ∗ (∃ d, owns (c : Thread nD τ) mSq fullShare d) ∗ otherScoped c) ∗ (∃ r, prngReg c r)) := by
  unfold Pipeline.ΦA otherScoped; rw [scopedRest0_eq]; simp only [mSum, mSq, owns_whole]; try rfl

/-! ## The runs at the buffers the pipeline passes at point `t` -/

abbrev RF (c : Dev nD) (t : Fin cfg0.N) (hc0 : isFirst (grid0.coords t)) (hc1 : ¬isLast (grid0.coords t)) (x0 : Vec F S5000x128 .f32) :=
  runFirst c (grid0.coords t) (mIn t) (hIn t) (mMean t) (hMean t) (mVar t) (hVar t) mSum (Memref.isWhole_whole _) mSq (Memref.isWhole_whole _) hc0 hc1 x0
abbrev RM (c : Dev nD) (t : Fin cfg0.N) (hc0 : ¬isFirst (grid0.coords t)) (hc1 : ¬isLast (grid0.coords t)) (x0 : Vec F S5000x128 .f32) (xs0 xs1 : Vec F S1x128 .f32) :=
  runMid c (grid0.coords t) (mIn t) (hIn t) (mMean t) (hMean t) (mVar t) (hVar t) mSum (Memref.isWhole_whole _) mSq (Memref.isWhole_whole _) hc0 hc1 x0 xs0 xs1
abbrev RL (c : Dev nD) (t : Fin cfg0.N) (hc0 : ¬isFirst (grid0.coords t)) (hc1 : isLast (grid0.coords t)) (x0 : Vec F S5000x128 .f32) (xs0 xs1 : Vec F S1x128 .f32) :=
  runLast c (grid0.coords t) (mIn t) (hIn t) (mMean t) (hMean t) (mVar t) (hVar t) mSum (Memref.isWhole_whole _) mSq (Memref.isWhole_whole _) hc0 hc1 x0 xs0 xs1

/-! ## Each run's stores cover the row they go to -/

theorem cover_sum_first (c : Dev nD) (t : Fin cfg0.N) (hc0 : isFirst (grid0.coords t)) (hc1 : ¬isLast (grid0.coords t)) (x0 : Vec F S5000x128 .f32) (y : S1x128.Idx) :
    ∃ pc ∈ (RF c t hc0 hc1 x0).1, y ∈ pc.1.set :=
  View.cover_of_tiledL (RF c t hc0 hc1 x0).1 S1x128.size (by sl_kernel_rfl) y
theorem cover_sq_first (c : Dev nD) (t : Fin cfg0.N) (hc0 : isFirst (grid0.coords t)) (hc1 : ¬isLast (grid0.coords t)) (x0 : Vec F S5000x128 .f32) (y : S1x128.Idx) :
    ∃ pc ∈ (RF c t hc0 hc1 x0).2.1, y ∈ pc.1.set :=
  View.cover_of_tiledL (RF c t hc0 hc1 x0).2.1 S1x128.size (by sl_kernel_rfl) y
theorem cover_sum_mid (c : Dev nD) (t : Fin cfg0.N) (hc0 : ¬isFirst (grid0.coords t)) (hc1 : ¬isLast (grid0.coords t)) (x0 : Vec F S5000x128 .f32) (xs0 xs1 : Vec F S1x128 .f32) (y : S1x128.Idx) :
    ∃ pc ∈ (RM c t hc0 hc1 x0 xs0 xs1).1, y ∈ pc.1.set :=
  View.cover_of_tiledL (RM c t hc0 hc1 x0 xs0 xs1).1 S1x128.size (by sl_kernel_rfl) y
theorem cover_sq_mid (c : Dev nD) (t : Fin cfg0.N) (hc0 : ¬isFirst (grid0.coords t)) (hc1 : ¬isLast (grid0.coords t)) (x0 : Vec F S5000x128 .f32) (xs0 xs1 : Vec F S1x128 .f32) (y : S1x128.Idx) :
    ∃ pc ∈ (RM c t hc0 hc1 x0 xs0 xs1).2.1, y ∈ pc.1.set :=
  View.cover_of_tiledL (RM c t hc0 hc1 x0 xs0 xs1).2.1 S1x128.size (by sl_kernel_rfl) y
theorem cover_mean_last (c : Dev nD) (t : Fin cfg0.N) (hc0 : ¬isFirst (grid0.coords t)) (hc1 : isLast (grid0.coords t)) (x0 : Vec F S5000x128 .f32) (xs0 xs1 : Vec F S1x128 .f32) (y : S1x128.Idx) :
    ∃ pc ∈ (RL c t hc0 hc1 x0 xs0 xs1).1, y ∈ pc.1.set :=
  View.cover_of_tiledL (RL c t hc0 hc1 x0 xs0 xs1).1 S1x128.size (by sl_kernel_rfl) y
theorem cover_var_last (c : Dev nD) (t : Fin cfg0.N) (hc0 : ¬isFirst (grid0.coords t)) (hc1 : isLast (grid0.coords t)) (x0 : Vec F S5000x128 .f32) (xs0 xs1 : Vec F S1x128 .f32) (y : S1x128.Idx) :
    ∃ pc ∈ (RL c t hc0 hc1 x0 xs0 xs1).2.1, y ∈ pc.1.set :=
  View.cover_of_tiledL (RL c t hc0 hc1 x0 xs0 xs1).2.1 S1x128.size (by sl_kernel_rfl) y
theorem cover_sum_last (c : Dev nD) (t : Fin cfg0.N) (hc0 : ¬isFirst (grid0.coords t)) (hc1 : isLast (grid0.coords t)) (x0 : Vec F S5000x128 .f32) (xs0 xs1 : Vec F S1x128 .f32) (y : S1x128.Idx) :
    ∃ pc ∈ (RL c t hc0 hc1 x0 xs0 xs1).2.2.1, y ∈ pc.1.set :=
  View.cover_of_tiledL (RL c t hc0 hc1 x0 xs0 xs1).2.2.1 S1x128.size (by sl_kernel_rfl) y
theorem cover_sq_last (c : Dev nD) (t : Fin cfg0.N) (hc0 : ¬isFirst (grid0.coords t)) (hc1 : isLast (grid0.coords t)) (x0 : Vec F S5000x128 .f32) (xs0 xs1 : Vec F S1x128 .f32) (y : S1x128.Idx) :
    ∃ pc ∈ (RL c t hc0 hc1 x0 xs0 xs1).2.2.2.1, y ∈ pc.1.set :=
  View.cover_of_tiledL (RL c t hc0 hc1 x0 xs0 xs1).2.2.2.1 S1x128.size (by sl_kernel_rfl) y

/-! ## What each run leaves in each row: its stores read back -/

def sumFirst (c : Dev nD) (t : Fin cfg0.N) (hc0 : isFirst (grid0.coords t)) (hc1 : ¬isLast (grid0.coords t)) (x0 : Vec F S5000x128 .f32) : Vec F S1x128 .f32 :=
  vSum.read (Elt F) (vSum.writes (Elt F) vSum.junk (RF c t hc0 hc1 x0).1)
def sqFirst (c : Dev nD) (t : Fin cfg0.N) (hc0 : isFirst (grid0.coords t)) (hc1 : ¬isLast (grid0.coords t)) (x0 : Vec F S5000x128 .f32) : Vec F S1x128 .f32 :=
  vSq.read (Elt F) (vSq.writes (Elt F) vSq.junk (RF c t hc0 hc1 x0).2.1)
def sumMid (c : Dev nD) (t : Fin cfg0.N) (hc0 : ¬isFirst (grid0.coords t)) (hc1 : ¬isLast (grid0.coords t)) (x0 : Vec F S5000x128 .f32) (xs0 xs1 : Vec F S1x128 .f32) : Vec F S1x128 .f32 :=
  vSum.read (Elt F) (vSum.writes (Elt F) vSum.junk (RM c t hc0 hc1 x0 xs0 xs1).1)
def sqMid (c : Dev nD) (t : Fin cfg0.N) (hc0 : ¬isFirst (grid0.coords t)) (hc1 : ¬isLast (grid0.coords t)) (x0 : Vec F S5000x128 .f32) (xs0 xs1 : Vec F S1x128 .f32) : Vec F S1x128 .f32 :=
  vSq.read (Elt F) (vSq.writes (Elt F) vSq.junk (RM c t hc0 hc1 x0 xs0 xs1).2.1)
def meanLast (c : Dev nD) (t : Fin cfg0.N) (hc0 : ¬isFirst (grid0.coords t)) (hc1 : isLast (grid0.coords t)) (x0 : Vec F S5000x128 .f32) (xs0 xs1 : Vec F S1x128 .f32) : Vec F S1x128 .f32 :=
  vMean.read (Elt F) (vMean.writes (Elt F) vMean.junk (RL c t hc0 hc1 x0 xs0 xs1).1)
def varLast (c : Dev nD) (t : Fin cfg0.N) (hc0 : ¬isFirst (grid0.coords t)) (hc1 : isLast (grid0.coords t)) (x0 : Vec F S5000x128 .f32) (xs0 xs1 : Vec F S1x128 .f32) : Vec F S1x128 .f32 :=
  vVar.read (Elt F) (vVar.writes (Elt F) vVar.junk (RL c t hc0 hc1 x0 xs0 xs1).2.1)
def sumLast (c : Dev nD) (t : Fin cfg0.N) (hc0 : ¬isFirst (grid0.coords t)) (hc1 : isLast (grid0.coords t)) (x0 : Vec F S5000x128 .f32) (xs0 xs1 : Vec F S1x128 .f32) : Vec F S1x128 .f32 :=
  vSum.read (Elt F) (vSum.writes (Elt F) vSum.junk (RL c t hc0 hc1 x0 xs0 xs1).2.2.1)
def sqLast (c : Dev nD) (t : Fin cfg0.N) (hc0 : ¬isFirst (grid0.coords t)) (hc1 : isLast (grid0.coords t)) (x0 : Vec F S5000x128 .f32) (xs0 xs1 : Vec F S1x128 .f32) : Vec F S1x128 .f32 :=
  vSq.read (Elt F) (vSq.writes (Elt F) vSq.junk (RL c t hc0 hc1 x0 xs0 xs1).2.2.2.1)

/-- A placeholder for an output row at a point that does not store into it (nothing consults it: the row is neither written
    back there nor read at the next point). -/
def idleRow : Vec F S1x128 .f32 := vMean.read (Elt F) vMean.junk

/-! ## The rows after each point -/

/-- After the body at position `n`: the two output rows, then the two scratch rows (sum, sum of squares). -/
def rowsAt (c : Dev nD) : (n : ℕ) → n < cfg0.N → Vec F S1x128 .f32 × Vec F S1x128 .f32 × Vec F S1x128 .f32 × Vec F S1x128 .f32
  | 0, hn =>
    (idleRow, idleRow,
      sumFirst c ⟨0, hn⟩ ((isFirst_iff ⟨0, hn⟩).mpr (Nat.zero_mod _)) (fun h => (fun h => by (try dsimp only at h); omega) ((isLast_iff ⟨0, hn⟩).mp h)) (blkAt V c 0 ⟨0, hn⟩),
      sqFirst c ⟨0, hn⟩ ((isFirst_iff ⟨0, hn⟩).mpr (Nat.zero_mod _)) (fun h => (fun h => by (try dsimp only at h); omega) ((isLast_iff ⟨0, hn⟩).mp h)) (blkAt V c 0 ⟨0, hn⟩))
  | n + 1, hn =>
    have hnf : ¬isFirst (grid0.coords ⟨n + 1, hn⟩) := fun h => by
      have h' := (isFirst_iff ⟨n + 1, hn⟩).mp h
      have hN : n + 1 < 10 := lt_of_lt_of_eq hn (show cfg0.N = 10 from N_0)
      (try dsimp only at h'); omega
    if h1 : (n + 1) % 10 = 9 then
      (meanLast c ⟨n + 1, hn⟩ hnf ((isLast_iff ⟨n + 1, hn⟩).mpr h1) (blkAt V c 0 ⟨n + 1, hn⟩) (rowsAt c n (Nat.lt_of_succ_lt hn)).2.2.1 (rowsAt c n (Nat.lt_of_succ_lt hn)).2.2.2,
       varLast c ⟨n + 1, hn⟩ hnf ((isLast_iff ⟨n + 1, hn⟩).mpr h1) (blkAt V c 0 ⟨n + 1, hn⟩) (rowsAt c n (Nat.lt_of_succ_lt hn)).2.2.1 (rowsAt c n (Nat.lt_of_succ_lt hn)).2.2.2,
       sumLast c ⟨n + 1, hn⟩ hnf ((isLast_iff ⟨n + 1, hn⟩).mpr h1) (blkAt V c 0 ⟨n + 1, hn⟩) (rowsAt c n (Nat.lt_of_succ_lt hn)).2.2.1 (rowsAt c n (Nat.lt_of_succ_lt hn)).2.2.2,
       sqLast c ⟨n + 1, hn⟩ hnf ((isLast_iff ⟨n + 1, hn⟩).mpr h1) (blkAt V c 0 ⟨n + 1, hn⟩) (rowsAt c n (Nat.lt_of_succ_lt hn)).2.2.1 (rowsAt c n (Nat.lt_of_succ_lt hn)).2.2.2)
    else
      (idleRow, idleRow,
       sumMid c ⟨n + 1, hn⟩ hnf (fun h => h1 ((isLast_iff ⟨n + 1, hn⟩).mp h)) (blkAt V c 0 ⟨n + 1, hn⟩) (rowsAt c n (Nat.lt_of_succ_lt hn)).2.2.1 (rowsAt c n (Nat.lt_of_succ_lt hn)).2.2.2,
       sqMid c ⟨n + 1, hn⟩ hnf (fun h => h1 ((isLast_iff ⟨n + 1, hn⟩).mp h)) (blkAt V c 0 ⟨n + 1, hn⟩) (rowsAt c n (Nat.lt_of_succ_lt hn)).2.2.1 (rowsAt c n (Nat.lt_of_succ_lt hn)).2.2.2)

/-- At the first point. -/
theorem rowsAt_first (c : Dev nD) (t : Fin cfg0.N) (hF : isFirst (grid0.coords t)) (hL : ¬isLast (grid0.coords t)) :
    rowsAt V c t.val t.isLt = (idleRow, idleRow, sumFirst c t hF hL (blkAt V c 0 t), sqFirst c t hF hL (blkAt V c 0 t)) := by
  obtain ⟨n, hn⟩ := t
  cases n with
  | zero => rfl
  | succ n =>
    exfalso
    have h' := (isFirst_iff ⟨n + 1, hn⟩).mp hF
    have hN : n + 1 < 10 := lt_of_lt_of_eq hn (show cfg0.N = 10 from N_0)
    (try dsimp only at h'); omega

/-- At a middle point: over what the point before left. -/
theorem rowsAt_mid (c : Dev nD) (t : Fin cfg0.N) (hF : ¬isFirst (grid0.coords t)) (hL : ¬isLast (grid0.coords t)) :
    rowsAt V c t.val t.isLt = (idleRow, idleRow,
      sumMid c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2,
      sqMid c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2) := by
  obtain ⟨n, hn⟩ := t
  cases n with
  | zero => exact absurd ((isFirst_iff ⟨0, hn⟩).mpr (Nat.zero_mod _)) hF
  | succ n => exact (dif_neg (fun h1 => hL ((isLast_iff ⟨n + 1, hn⟩).mpr h1))).trans rfl

/-- At the last point: over what the point before left. -/
theorem rowsAt_last (c : Dev nD) (t : Fin cfg0.N) (hF : ¬isFirst (grid0.coords t)) (hL : isLast (grid0.coords t)) :
    rowsAt V c t.val t.isLt = (
      meanLast c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2,
      varLast c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2,
      sumLast c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2,
      sqLast c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2) := by
  obtain ⟨n, hn⟩ := t
  cases n with
  | zero => exact absurd ((isFirst_iff ⟨0, hn⟩).mpr (Nat.zero_mod _)) hF
  | succ n => exact (dif_pos ((isLast_iff ⟨n + 1, hn⟩).mp hL)).trans rfl

/-! ## The invariant between points -/

def PhiS (c : Dev nD) : (n : ℕ) → n ≤ cfg0.N → sProp 𝕄
  | 0, _ => Pipeline.ΦA spec0 c
  | n + 1, hn => iprop((owns (c : Thread nD τ) mSum fullShare (rowsAt V c n hn).2.2.1 ∗ owns (c : Thread nD τ) mSq fullShare (rowsAt V c n hn).2.2.2 ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) mSum fullShare (rowsAt V c n hn).2.2.1 ∗ owns (c : Thread nD τ) mSq fullShare (rowsAt V c n hn).2.2.2 ∗ otherScoped c) ∗ (∃ r, prngReg c r)) := rfl
theorem PhiS_pos (c : Dev nD) (n : ℕ) (h : n ≤ cfg0.N) (hz : n ≠ 0) :
    PhiS V c n h = iprop((owns (c : Thread nD τ) mSum fullShare (rowsAt V c (n - 1) (by omega)).2.2.1 ∗ owns (c : Thread nD τ) mSq fullShare (rowsAt V c (n - 1) (by omega)).2.2.2 ∗ otherScoped c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => blkAt V c 0 t
    | ⟨1, _⟩ => (rowsAt V c t.val t.isLt).1
    | ⟨2, _⟩ => (rowsAt V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after_in (c : Dev nD) (t : Fin cfg0.N) : (dat0 V c).after 0 t = blkAt V c 0 t := by dsimp only [dat0]
theorem after_mean (c : Dev nD) (t : Fin cfg0.N) : (dat0 V c).after 1 t = (rowsAt V c t.val t.isLt).1 := by dsimp only [dat0]
theorem after_var (c : Dev nD) (t : Fin cfg0.N) : (dat0 V c).after 2 t = (rowsAt V c t.val t.isLt).2.1 := by dsimp only [dat0]
theorem before_in (c : Dev nD) (t : Fin cfg0.N) (d) : (dat0 V c).before 0 t d = blkAt V c 0 t :=
  before_in_of V (dat0 V c) (A_eq0 V c 0) (after_in V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mIn t) fullShare ((dat0 V c).before 0 t d))
    ∗ (∃ d, owns (c : Thread nD τ) (mMean t) fullShare ((dat0 V c).before 1 t d))
    ∗ (∃ d, owns (c : Thread nD τ) (mVar t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which of the three cases the point is in; the
    invariant hands the body the scratch rows (at anything at the first point, at what the point before left otherwise) and
    takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before_in]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (mIn t) fullShare ((dat0 V c).after 0 t) from by
    unfold Dat.leavesExact; rw [live_in t], after_in]
  by_cases h0 : t.val % 10 = 0
  · have hF : isFirst (grid0.coords t) := (isFirst_iff t).mpr h0
    have hL : ¬isLast (grid0.coords t) := fun h => by have h' := (isLast_iff t).mp h; omega
    rw [Dat.leavesExact_idle (dat0 V c) 1 t (idle_mean t hL) (noFlush_mean t hL),
      Dat.leavesExact_idle (dat0 V c) 2 t (idle_var t hL) (noFlush_var t hL)]
    rw [rowsAt_first V c t hF hL]
    unfold sumFirst sqFirst; (try dsimp only)
    have hz : t.val = 0 := by omega
    rw [PhiS_castSucc V c t, PhiS_zero V c _ _ hz, PhiA0_eq]
    iintro ⟨⟨⟨HS0, HS1, Hoth⟩, Hg⟩, Ho, ⟨%d0, H0⟩, ⟨%d1, H1⟩, ⟨%d2, H2⟩⟩
    iapply ((RF c t hF hL (blkAt V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (cover_sum_first c t hF hL _)
        isplitl [HS1]
        · unfold owns; iexists _; isplitr
          swap; · iexact HS1
          ipureintro; exact View.read_writes_of_cover _ _ _ _ _ (cover_sq_first c t hF hL _)
        iexact Hoth
      iexact Hg
    isplitl [Ho]; · iexact Ho
    isplitl [H0]; · iexact H0
    isplitl [H1]; · iexists _; iexact H1
    iexists _; iexact H2
  · have hF : ¬isFirst (grid0.coords t) := fun h => h0 ((isFirst_iff t).mp h)
    have hz : t.val ≠ 0 := fun h => h0 (by rw [h])
    by_cases h1 : t.val % 10 = 9
    · have hL : isLast (grid0.coords t) := (isLast_iff t).mpr h1
      rw [show (dat0 V c).leavesExact 1 t = owns (c : Thread nD τ) (mMean t) fullShare ((dat0 V c).after 1 t) from by
        unfold Dat.leavesExact; rw [live_mean t hL], after_mean]
      rw [show (dat0 V c).leavesExact 2 t = owns (c : Thread nD τ) (mVar t) fullShare ((dat0 V c).after 2 t) from by
        unfold Dat.leavesExact; rw [live_var t hL], after_var]
      rw [rowsAt_last V c t hF hL]
      unfold meanLast varLast sumLast sqLast; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((RL c t hF hL (blkAt V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (cover_sum_last c t hF hL _ _ _)
          isplitl [HS1]
          · unfold owns; iexists _; isplitr
            swap; · iexact HS1
            ipureintro; exact View.read_writes_of_cover _ _ _ _ _ (cover_sq_last c t hF hL _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover_mean_last c t hF hL _ _ _)
      unfold owns; iexists _; isplitr
      swap; · iexact H2
      ipureintro; exact View.read_writes_of_cover _ _ _ _ _ (cover_var_last c t hF hL _ _ _)
    · have hL : ¬isLast (grid0.coords t) := fun h => h1 ((isLast_iff t).mp h)
      rw [Dat.leavesExact_idle (dat0 V c) 1 t (idle_mean t hL) (noFlush_mean t hL),
        Dat.leavesExact_idle (dat0 V c) 2 t (idle_var t hL) (noFlush_var t hL)]
      rw [rowsAt_mid V c t hF hL]
      unfold sumMid sqMid; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((RM c t hF hL (blkAt V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (cover_sum_mid c t hF hL _ _ _)
          isplitl [HS1]
          · unfold owns; iexists _; isplitr
            swap; · iexact HS1
            ipureintro; exact View.read_writes_of_cover _ _ _ _ _ (cover_sq_mid c t hF hL _ _ _)
          iexact Hoth
        iexact Hg
      isplitl [Ho]; · iexact Ho
      isplitl [H0]; · iexact H0
      isplitl [H1]; · iexists _; iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch rows' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.Frames

end
-- ==== Proof.WordBlendFrame.lean ====
/-
  The normalise-and-blend kernel (the second kernel region), on arbitrary whole staging buffers, and the region's proof
  data. Each of its 25 grid points sees a block of 2000 rows of the summed array and of the second input array, the two
  statistics rows, the scale and shift rows and the whole transposed weight; it loads them all, computes one value and
  stores it over the whole output block. The body keeps nothing between points, so the region's invariant is the plain one:
  every scoped buffer it does not stage at anything, the generator register at some state.
-/
import proofs.«159637_j21912923144342_2_alg».proof.Proof.Gen.Kernel.Launch
import proofs.«159637_j21912923144342_2_alg».proof.Proof.Gen.Kernel.Skeleton
import proofs.«159637_j21912923144342_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and the store take the whole buffer -/

abbrev rN : Rect S2000x128 := Rect.unit (s := S2000x128) ![0, 0] S2000x128.size inb_S2000x128_S2000x128_0_0
abbrev rF : Rect S1x128 := Rect.unit (s := S1x128) ![0, 0] S1x128.size inb_S1x128_S1x128_0_0
abbrev rW : Rect S128x128 := Rect.unit (s := S128x128) ![0, 0] S128x128.size inb_S128x128_S128x128_0_0

/-- The output block after the body, from the seven input blocks: its one store. -/
def outBlk (x0 : Vec F S2000x128 .f32) (x1 : Vec F S2000x128 .f32) (x2 : Vec F S1x128 .f32) (x3 : Vec F S1x128 .f32) (x4 : Vec F S1x128 .f32) (x5 : Vec F S1x128 .f32) (x6 : Vec F S128x128 .f32) : Vec F S2000x128 .f32 :=
  View.canon [⟨rN, k1_pay1 (k1_pay2 (View.ld x0 rN) (View.ld x2 rF) (View.ld x3 rF) (View.ld x4 rF) (View.ld x5 rF) (View.ld x1 rN) (View.ld x6 rW)) (k1_pay3 (F := F))⟩]

theorem cover_out (p0 : Vec F S2000x128 .f32) (y : S2000x128.Idx) :
    ∃ pc ∈ ([⟨rN, p0⟩] : List (View.Piece (Elt F) S2000x128 .f32)), y ∈ pc.1.set :=
  View.cover_of_tiled [⟨rN, p0⟩] S2000x128.size (by rfl) y

/-! ## The body's triple -/

set_option maxHeartbeats 1000000 in
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x128 .f32) (harg7 : arg7.IsWhole) (arg8 : Memref sig .tc .vmem S2000x128 .f32) (harg8 : arg8.IsWhole)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E (cc1__bn_blend_kernel i arg1 harg1 arg2 harg2 arg3 harg3 arg4 harg4 arg5 harg5 arg6 harg6 arg7 harg7 arg8 harg8) K := by
  simp only [cc1__bn_blend_kernel_eq_skeleton]; unfold cc1__bn_blend_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The region's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => outBlk (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = outBlk (blk1 V c 0 t) (blk1 V c 1 t) (blk1 V c 2 t) (blk1 V c 3 t) (blk1 V c 4 t) (blk1 V c 5 t) (blk1 V c 6 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Frames

end
-- ==== Proof.WordMainRun.lean ====
/-
  The whole program as a sequence of four segments — the host operations that build the summed array, the statistics
  region, three host operations (two reshapes and a transpose), the normalise-and-blend region — and its run: from any
  memory with zero counters every weakly fair execution terminates without a fault, the eight argument arrays end as they
  were launched, and the result array ends at what the second region's write-backs leave, over the buffer contents at each
  segment boundary (a fold from the launch memory: a host stretch applies its operations, a region replaces its output
  arrays by what its pipeline leaves and keeps every other buffer).
-/
import proofs.«159637_j21912923144342_2_alg».proof.Proof.WordStatsFrame
import proofs.«159637_j21912923144342_2_alg».proof.Proof.WordBlendFrame
import proofs.«159637_j21912923144342_2_alg».proof.Proof.Gen.Kernel.Regions
import Idealize.ShloMosaic.Lib.Pipeline.RegionsLoop

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch: the statistics region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the statistics region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the blend region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the blend region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, no region changes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The result array ends at what the blend region's write-backs leave. -/
theorem W4_result (c : Dev nD) : W4 m ρ c (Proc.devRef .tc main_v16) = (dat1 (V3 m ρ) c).arrAt 7 cfg1.N :=
  W4_arr m ρ c 7

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show ((pdats m ρ 0 c).Φ (Fin.last _) : sProp 𝕄) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution terminates, nothing faulting; the result array ends at the last boundary's
    contents and every argument array as launched. -/
theorem run_all : θ_run defs (onTc (τ := τ) (main (F := F))) ⟨m, fun _ => 0, ρ⟩ (fun r => ∀ c : Dev nD,
      r.2.mem ((c.tc : Thread nD τ).loc main_v16) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v16 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The frame: the argument arrays end unchanged. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.Kernel.Frames

end
-- ==== Proof.StatsRuns.lean ====
/-
  The statistics kernel (the first of the two kernel regions), run once on arbitrary whole staging buffers.

  The grid has ten points; each point sees a block of 5000 rows. Two scratch rows of 128 entries carry the running column
  sums of the entries and of their squares from point to point. Three control cases occur:
    * the first point: the two scratch rows are reset to zero, then the block's column sums are added;
    * a middle point: the block's column sums are added to what the point before left;
    * the last point: as a middle point, and then the two output rows are written from the totals — the first is the
      total of the entries scaled by the reciprocal of the row count, the second the scaled total of the squares less the
      square of the first.
  At the first nine points the two output rows are not touched and are not written back.
  For each case the run below says, on whole buffers, which stores each buffer ends with (as a list of pieces, last first).
-/
import proofs.«159637_j21912923144342_2_alg».proof.Proof.Gen.KernelIdeal.Launch
import proofs.«159637_j21912923144342_2_alg».proof.Proof.Gen.KernelIdeal.Skeleton
import proofs.«159637_j21912923144342_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions, over the grid -/

/-- "This is the first point": the body's first conditional, as its scalar chain over the grid coordinate. -/
abbrev isFirst (i : grid0.Coords) : Prop :=
  (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val % 10 = 0 :=
  (by decide +kernel : ∀ t : Fin grid0.N, isFirst (grid0.coords t) ↔ t.val % 10 = 0)

/-- "This is the last point": the body's second conditional. -/
abbrev isLast (i : grid0.Coords) : Prop := k0_cond2 i = 1#1
/-- It holds at point 9 only. -/
theorem isLast_iff : ∀ t : Fin cfg0.N, isLast (grid0.coords t) ↔ t.val % 10 = 9 :=
  (by decide +kernel : ∀ t : Fin grid0.N, isLast (grid0.coords t) ↔ t.val % 10 = 9)

/-! ## Where the output rows are idle -/

theorem live_in : ∀ t : Fin cfg0.N, cfg0.idle 0 (grid0.coords t) = false := by decide +kernel
theorem idle_mean : ∀ t : Fin cfg0.N, ¬isLast (grid0.coords t) → cfg0.idle 1 (grid0.coords t) = true := by decide +kernel
theorem idle_var : ∀ t : Fin cfg0.N, ¬isLast (grid0.coords t) → cfg0.idle 2 (grid0.coords t) = true := by decide +kernel
theorem noFlush_mean : ∀ t : Fin cfg0.N, ¬isLast (grid0.coords t) → (cfg0.win 1).flush t = false := by decide +kernel
theorem noFlush_var : ∀ t : Fin cfg0.N, ¬isLast (grid0.coords t) → (cfg0.win 2).flush t = false := by decide +kernel
theorem live_mean : ∀ t : Fin cfg0.N, isLast (grid0.coords t) → cfg0.idle 1 (grid0.coords t) = false := by decide +kernel
theorem live_var : ∀ t : Fin cfg0.N, isLast (grid0.coords t) → cfg0.idle 2 (grid0.coords t) = false := by decide +kernel

/-! ## The buffers the body is called with -/

abbrev mIn (t : Fin cfg0.N) : Memref sig .tc .vmem S5000x128 .f32 := win0_0.stage (cfg0.slots t 0)
abbrev hIn (t : Fin cfg0.N) : (mIn t).IsWhole := hstage0_0 ((cfg0.slots t 0).cast nbuf0_0)
abbrev mMean (t : Fin cfg0.N) : Memref sig .tc .vmem S1x128 .f32 := win0_1.stage (cfg0.slots t 1)
abbrev hMean (t : Fin cfg0.N) : (mMean t).IsWhole := hstage0_1 ((cfg0.slots t 1).cast nbuf0_1)
abbrev mVar (t : Fin cfg0.N) : Memref sig .tc .vmem S1x128 .f32 := win0_2.stage (cfg0.slots t 2)
abbrev hVar (t : Fin cfg0.N) : (mVar t).IsWhole := hstage0_2 ((cfg0.slots t 2).cast nbuf0_2)
/-- The two scratch rows: the running sum and the running sum of squares. -/
abbrev mSum : Memref sig .tc .vmem S1x128 .f32 := Memref.whole cc0_scratch0
abbrev mSq : Memref sig .tc .vmem S1x128 .f32 := Memref.whole cc0_scratch1
/-- Views through which the rows' contents are stated. -/
abbrev vSum : View sig .tc .vmem S1x128 .f32 := mSum.view
abbrev vSq : View sig .tc .vmem S1x128 .f32 := mSq.view
abbrev vMean : View sig .tc .vmem S1x128 .f32 := (Memref.whole cc0_stg1_0 : Memref sig .tc .vmem S1x128 .f32).view
abbrev vVar : View sig .tc .vmem S1x128 .f32 := (Memref.whole cc0_stg2_0 : Memref sig .tc .vmem S1x128 .f32).view

/-! ## The three runs -/

set_option maxHeartbeats 1000000 in
/-- The first point: the scratch rows at anything on entry; the output rows handed back untouched. -/
noncomputable def runFirst (c : Dev nD) (i : grid0.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : isFirst i) (hc1 : ¬isLast i) (x0 : Vec F S5000x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A middle point: the scratch rows at what the point before left; the output rows handed back untouched. -/
noncomputable def runMid (c : Dev nD) (i : grid0.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : ¬isFirst i) (hc1 : ¬isLast i) (x0 : Vec F S5000x128 .f32) (xs0 xs1 : Vec F S1x128 .f32) :
    Σ' (LS0 : List (View.Piece (Elt F) S1x128 .f32)), { LS1 : List (View.Piece (Elt F) S1x128 .f32) //
      ∀ (xi1 xi2 : Vec F S1x128 .f32) (E : Set ℕ) (K : PUnit → sProp 𝕄),
        iprop(owns (c : Thread nD τ) arg1 fullShare x0 ∗ owns (c : Thread nD τ) arg2 fullShare xi1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, fun xi1 xi2 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the scratch rows at what the point before left; the output rows at anything on entry, written whole. -/
noncomputable def runLast (c : Dev nD) (i : grid0.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole)
    (hc0 : ¬isFirst i) (hc1 : isLast i) (x0 : Vec F S5000x128 .f32) (xs0 xs1 : Vec F S1x128 .f32) :
    Σ' (L1 : List (View.Piece (Elt F) S1x128 .f32)) (L2 : List (View.Piece (Elt F) S1x128 .f32)) (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc0__stats_kernel i arg1 harg1 arg2 harg2 arg3 harg3 arg4 harg4 arg5 harg5) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Frames

end
-- ==== Proof.StatsFrame.lean ====
/-
  The statistics region as a whole: what its scratch rows and output rows hold after each grid point, the region's
  invariant, and the obligation of its body at every point.

  After point `n` the two scratch rows hold the column sums (of the entries, of their squares) of the first `n + 1` blocks
  of the input array, accumulated block by block from zero; after the last point the two output rows hold the scaled
  totals. The invariant between points is: the two scratch rows at exactly those contents (at anything before the first
  point), every other scoped buffer at anything, the generator register at some state. The statements are over the
  stores found by the three runs of the body.
-/
import proofs.«159637_j21912923144342_2_alg».proof.Proof.StatsRuns

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The input block at a point -/

/-- Window `w`'s block at point `t`, read off its array as the region finds it. -/
def blkAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point. -/
theorem before_in_of {c : Dev nD} (dat : Dat τ (Elt F) Unit ℕ (UR sig nD τ) ℕ cfg0 c) (hA : dat.A 0 = V c (Pipeline.arrRef spec0 0))
    (hafter : ∀ t, dat.after 0 t = blkAt V c 0 t) (t : Fin cfg0.N) (d) : dat.before 0 t d = blkAt V c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-! ## The scoped buffers the region does not use -/

/-- The staging buffers of the other region: scoped, untouched here, each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the two scratch rows named. -/
theorem PhiA0_eq (c : Dev nD) :
    (Pipeline.ΦA spec0 c : sProp 𝕄)
      = iprop(((∃ d, owns (c : Thread nD τ) mSum fullShare d) ∗ (∃ d, owns (c : Thread nD τ) mSq fullShare d) ∗ otherScoped c) ∗ (∃ r, prngReg c r)) := by
  unfold Pipeline.ΦA otherScoped; rw [scopedRest0_eq]; simp only [mSum, mSq, owns_whole]; try rfl

/-! ## The runs at the buffers the pipeline passes at point `t` -/

abbrev RF (c : Dev nD) (t : Fin cfg0.N) (hc0 : isFirst (grid0.coords t)) (hc1 : ¬isLast (grid0.coords t)) (x0 : Vec F S5000x128 .f32) :=
  runFirst c (grid0.coords t) (mIn t) (hIn t) (mMean t) (hMean t) (mVar t) (hVar t) mSum (Memref.isWhole_whole _) mSq (Memref.isWhole_whole _) hc0 hc1 x0
abbrev RM (c : Dev nD) (t : Fin cfg0.N) (hc0 : ¬isFirst (grid0.coords t)) (hc1 : ¬isLast (grid0.coords t)) (x0 : Vec F S5000x128 .f32) (xs0 xs1 : Vec F S1x128 .f32) :=
  runMid c (grid0.coords t) (mIn t) (hIn t) (mMean t) (hMean t) (mVar t) (hVar t) mSum (Memref.isWhole_whole _) mSq (Memref.isWhole_whole _) hc0 hc1 x0 xs0 xs1
abbrev RL (c : Dev nD) (t : Fin cfg0.N) (hc0 : ¬isFirst (grid0.coords t)) (hc1 : isLast (grid0.coords t)) (x0 : Vec F S5000x128 .f32) (xs0 xs1 : Vec F S1x128 .f32) :=
  runLast c (grid0.coords t) (mIn t) (hIn t) (mMean t) (hMean t) (mVar t) (hVar t) mSum (Memref.isWhole_whole _) mSq (Memref.isWhole_whole _) hc0 hc1 x0 xs0 xs1

/-! ## Each run's stores cover the row they go to -/

theorem cover_sum_first (c : Dev nD) (t : Fin cfg0.N) (hc0 : isFirst (grid0.coords t)) (hc1 : ¬isLast (grid0.coords t)) (x0 : Vec F S5000x128 .f32) (y : S1x128.Idx) :
    ∃ pc ∈ (RF c t hc0 hc1 x0).1, y ∈ pc.1.set :=
  View.cover_of_tiledL (RF c t hc0 hc1 x0).1 S1x128.size (by sl_kernel_rfl) y
theorem cover_sq_first (c : Dev nD) (t : Fin cfg0.N) (hc0 : isFirst (grid0.coords t)) (hc1 : ¬isLast (grid0.coords t)) (x0 : Vec F S5000x128 .f32) (y : S1x128.Idx) :
    ∃ pc ∈ (RF c t hc0 hc1 x0).2.1, y ∈ pc.1.set :=
  View.cover_of_tiledL (RF c t hc0 hc1 x0).2.1 S1x128.size (by sl_kernel_rfl) y
theorem cover_sum_mid (c : Dev nD) (t : Fin cfg0.N) (hc0 : ¬isFirst (grid0.coords t)) (hc1 : ¬isLast (grid0.coords t)) (x0 : Vec F S5000x128 .f32) (xs0 xs1 : Vec F S1x128 .f32) (y : S1x128.Idx) :
    ∃ pc ∈ (RM c t hc0 hc1 x0 xs0 xs1).1, y ∈ pc.1.set :=
  View.cover_of_tiledL (RM c t hc0 hc1 x0 xs0 xs1).1 S1x128.size (by sl_kernel_rfl) y
theorem cover_sq_mid (c : Dev nD) (t : Fin cfg0.N) (hc0 : ¬isFirst (grid0.coords t)) (hc1 : ¬isLast (grid0.coords t)) (x0 : Vec F S5000x128 .f32) (xs0 xs1 : Vec F S1x128 .f32) (y : S1x128.Idx) :
    ∃ pc ∈ (RM c t hc0 hc1 x0 xs0 xs1).2.1, y ∈ pc.1.set :=
  View.cover_of_tiledL (RM c t hc0 hc1 x0 xs0 xs1).2.1 S1x128.size (by sl_kernel_rfl) y
theorem cover_mean_last (c : Dev nD) (t : Fin cfg0.N) (hc0 : ¬isFirst (grid0.coords t)) (hc1 : isLast (grid0.coords t)) (x0 : Vec F S5000x128 .f32) (xs0 xs1 : Vec F S1x128 .f32) (y : S1x128.Idx) :
    ∃ pc ∈ (RL c t hc0 hc1 x0 xs0 xs1).1, y ∈ pc.1.set :=
  View.cover_of_tiledL (RL c t hc0 hc1 x0 xs0 xs1).1 S1x128.size (by sl_kernel_rfl) y
theorem cover_var_last (c : Dev nD) (t : Fin cfg0.N) (hc0 : ¬isFirst (grid0.coords t)) (hc1 : isLast (grid0.coords t)) (x0 : Vec F S5000x128 .f32) (xs0 xs1 : Vec F S1x128 .f32) (y : S1x128.Idx) :
    ∃ pc ∈ (RL c t hc0 hc1 x0 xs0 xs1).2.1, y ∈ pc.1.set :=
  View.cover_of_tiledL (RL c t hc0 hc1 x0 xs0 xs1).2.1 S1x128.size (by sl_kernel_rfl) y
theorem cover_sum_last (c : Dev nD) (t : Fin cfg0.N) (hc0 : ¬isFirst (grid0.coords t)) (hc1 : isLast (grid0.coords t)) (x0 : Vec F S5000x128 .f32) (xs0 xs1 : Vec F S1x128 .f32) (y : S1x128.Idx) :
    ∃ pc ∈ (RL c t hc0 hc1 x0 xs0 xs1).2.2.1, y ∈ pc.1.set :=
  View.cover_of_tiledL (RL c t hc0 hc1 x0 xs0 xs1).2.2.1 S1x128.size (by sl_kernel_rfl) y
theorem cover_sq_last (c : Dev nD) (t : Fin cfg0.N) (hc0 : ¬isFirst (grid0.coords t)) (hc1 : isLast (grid0.coords t)) (x0 : Vec F S5000x128 .f32) (xs0 xs1 : Vec F S1x128 .f32) (y : S1x128.Idx) :
    ∃ pc ∈ (RL c t hc0 hc1 x0 xs0 xs1).2.2.2.1, y ∈ pc.1.set :=
  View.cover_of_tiledL (RL c t hc0 hc1 x0 xs0 xs1).2.2.2.1 S1x128.size (by sl_kernel_rfl) y

/-! ## What each run leaves in each row: its stores read back -/

def sumFirst (c : Dev nD) (t : Fin cfg0.N) (hc0 : isFirst (grid0.coords t)) (hc1 : ¬isLast (grid0.coords t)) (x0 : Vec F S5000x128 .f32) : Vec F S1x128 .f32 :=
  vSum.read (Elt F) (vSum.writes (Elt F) vSum.junk (RF c t hc0 hc1 x0).1)
def sqFirst (c : Dev nD) (t : Fin cfg0.N) (hc0 : isFirst (grid0.coords t)) (hc1 : ¬isLast (grid0.coords t)) (x0 : Vec F S5000x128 .f32) : Vec F S1x128 .f32 :=
  vSq.read (Elt F) (vSq.writes (Elt F) vSq.junk (RF c t hc0 hc1 x0).2.1)
def sumMid (c : Dev nD) (t : Fin cfg0.N) (hc0 : ¬isFirst (grid0.coords t)) (hc1 : ¬isLast (grid0.coords t)) (x0 : Vec F S5000x128 .f32) (xs0 xs1 : Vec F S1x128 .f32) : Vec F S1x128 .f32 :=
  vSum.read (Elt F) (vSum.writes (Elt F) vSum.junk (RM c t hc0 hc1 x0 xs0 xs1).1)
def sqMid (c : Dev nD) (t : Fin cfg0.N) (hc0 : ¬isFirst (grid0.coords t)) (hc1 : ¬isLast (grid0.coords t)) (x0 : Vec F S5000x128 .f32) (xs0 xs1 : Vec F S1x128 .f32) : Vec F S1x128 .f32 :=
  vSq.read (Elt F) (vSq.writes (Elt F) vSq.junk (RM c t hc0 hc1 x0 xs0 xs1).2.1)
def meanLast (c : Dev nD) (t : Fin cfg0.N) (hc0 : ¬isFirst (grid0.coords t)) (hc1 : isLast (grid0.coords t)) (x0 : Vec F S5000x128 .f32) (xs0 xs1 : Vec F S1x128 .f32) : Vec F S1x128 .f32 :=
  vMean.read (Elt F) (vMean.writes (Elt F) vMean.junk (RL c t hc0 hc1 x0 xs0 xs1).1)
def varLast (c : Dev nD) (t : Fin cfg0.N) (hc0 : ¬isFirst (grid0.coords t)) (hc1 : isLast (grid0.coords t)) (x0 : Vec F S5000x128 .f32) (xs0 xs1 : Vec F S1x128 .f32) : Vec F S1x128 .f32 :=
  vVar.read (Elt F) (vVar.writes (Elt F) vVar.junk (RL c t hc0 hc1 x0 xs0 xs1).2.1)
def sumLast (c : Dev nD) (t : Fin cfg0.N) (hc0 : ¬isFirst (grid0.coords t)) (hc1 : isLast (grid0.coords t)) (x0 : Vec F S5000x128 .f32) (xs0 xs1 : Vec F S1x128 .f32) : Vec F S1x128 .f32 :=
  vSum.read (Elt F) (vSum.writes (Elt F) vSum.junk (RL c t hc0 hc1 x0 xs0 xs1).2.2.1)
def sqLast (c : Dev nD) (t : Fin cfg0.N) (hc0 : ¬isFirst (grid0.coords t)) (hc1 : isLast (grid0.coords t)) (x0 : Vec F S5000x128 .f32) (xs0 xs1 : Vec F S1x128 .f32) : Vec F S1x128 .f32 :=
  vSq.read (Elt F) (vSq.writes (Elt F) vSq.junk (RL c t hc0 hc1 x0 xs0 xs1).2.2.2.1)

/-- A placeholder for an output row at a point that does not store into it (nothing consults it: the row is neither written
    back there nor read at the next point). -/
def idleRow : Vec F S1x128 .f32 := vMean.read (Elt F) vMean.junk

/-! ## The rows after each point -/

/-- After the body at position `n`: the two output rows, then the two scratch rows (sum, sum of squares). -/
def rowsAt (c : Dev nD) : (n : ℕ) → n < cfg0.N → Vec F S1x128 .f32 × Vec F S1x128 .f32 × Vec F S1x128 .f32 × Vec F S1x128 .f32
  | 0, hn =>
    (idleRow, idleRow,
      sumFirst c ⟨0, hn⟩ ((isFirst_iff ⟨0, hn⟩).mpr (Nat.zero_mod _)) (fun h => (fun h => by (try dsimp only at h); omega) ((isLast_iff ⟨0, hn⟩).mp h)) (blkAt V c 0 ⟨0, hn⟩),
      sqFirst c ⟨0, hn⟩ ((isFirst_iff ⟨0, hn⟩).mpr (Nat.zero_mod _)) (fun h => (fun h => by (try dsimp only at h); omega) ((isLast_iff ⟨0, hn⟩).mp h)) (blkAt V c 0 ⟨0, hn⟩))
  | n + 1, hn =>
    have hnf : ¬isFirst (grid0.coords ⟨n + 1, hn⟩) := fun h => by
      have h' := (isFirst_iff ⟨n + 1, hn⟩).mp h
      have hN : n + 1 < 10 := lt_of_lt_of_eq hn (show cfg0.N = 10 from N_0)
      (try dsimp only at h'); omega
    if h1 : (n + 1) % 10 = 9 then
      (meanLast c ⟨n + 1, hn⟩ hnf ((isLast_iff ⟨n + 1, hn⟩).mpr h1) (blkAt V c 0 ⟨n + 1, hn⟩) (rowsAt c n (Nat.lt_of_succ_lt hn)).2.2.1 (rowsAt c n (Nat.lt_of_succ_lt hn)).2.2.2,
       varLast c ⟨n + 1, hn⟩ hnf ((isLast_iff ⟨n + 1, hn⟩).mpr h1) (blkAt V c 0 ⟨n + 1, hn⟩) (rowsAt c n (Nat.lt_of_succ_lt hn)).2.2.1 (rowsAt c n (Nat.lt_of_succ_lt hn)).2.2.2,
       sumLast c ⟨n + 1, hn⟩ hnf ((isLast_iff ⟨n + 1, hn⟩).mpr h1) (blkAt V c 0 ⟨n + 1, hn⟩) (rowsAt c n (Nat.lt_of_succ_lt hn)).2.2.1 (rowsAt c n (Nat.lt_of_succ_lt hn)).2.2.2,
       sqLast c ⟨n + 1, hn⟩ hnf ((isLast_iff ⟨n + 1, hn⟩).mpr h1) (blkAt V c 0 ⟨n + 1, hn⟩) (rowsAt c n (Nat.lt_of_succ_lt hn)).2.2.1 (rowsAt c n (Nat.lt_of_succ_lt hn)).2.2.2)
    else
      (idleRow, idleRow,
       sumMid c ⟨n + 1, hn⟩ hnf (fun h => h1 ((isLast_iff ⟨n + 1, hn⟩).mp h)) (blkAt V c 0 ⟨n + 1, hn⟩) (rowsAt c n (Nat.lt_of_succ_lt hn)).2.2.1 (rowsAt c n (Nat.lt_of_succ_lt hn)).2.2.2,
       sqMid c ⟨n + 1, hn⟩ hnf (fun h => h1 ((isLast_iff ⟨n + 1, hn⟩).mp h)) (blkAt V c 0 ⟨n + 1, hn⟩) (rowsAt c n (Nat.lt_of_succ_lt hn)).2.2.1 (rowsAt c n (Nat.lt_of_succ_lt hn)).2.2.2)

/-- At the first point. -/
theorem rowsAt_first (c : Dev nD) (t : Fin cfg0.N) (hF : isFirst (grid0.coords t)) (hL : ¬isLast (grid0.coords t)) :
    rowsAt V c t.val t.isLt = (idleRow, idleRow, sumFirst c t hF hL (blkAt V c 0 t), sqFirst c t hF hL (blkAt V c 0 t)) := by
  obtain ⟨n, hn⟩ := t
  cases n with
  | zero => rfl
  | succ n =>
    exfalso
    have h' := (isFirst_iff ⟨n + 1, hn⟩).mp hF
    have hN : n + 1 < 10 := lt_of_lt_of_eq hn (show cfg0.N = 10 from N_0)
    (try dsimp only at h'); omega

/-- At a middle point: over what the point before left. -/
theorem rowsAt_mid (c : Dev nD) (t : Fin cfg0.N) (hF : ¬isFirst (grid0.coords t)) (hL : ¬isLast (grid0.coords t)) :
    rowsAt V c t.val t.isLt = (idleRow, idleRow,
      sumMid c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2,
      sqMid c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2) := by
  obtain ⟨n, hn⟩ := t
  cases n with
  | zero => exact absurd ((isFirst_iff ⟨0, hn⟩).mpr (Nat.zero_mod _)) hF
  | succ n => exact (dif_neg (fun h1 => hL ((isLast_iff ⟨n + 1, hn⟩).mpr h1))).trans rfl

/-- At the last point: over what the point before left. -/
theorem rowsAt_last (c : Dev nD) (t : Fin cfg0.N) (hF : ¬isFirst (grid0.coords t)) (hL : isLast (grid0.coords t)) :
    rowsAt V c t.val t.isLt = (
      meanLast c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2,
      varLast c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2,
      sumLast c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2,
      sqLast c t hF hL (blkAt V c 0 t) (rowsAt V c (t.val - 1) (Nat.lt_of_le_of_lt (Nat.sub_le _ _) t.isLt)).2.2.1 (rowsAt V c (t.val - 1) (Nat.lt_of_le_of_lt (Nat.sub_le _ _) t.isLt)).2.2.2) := by
  obtain ⟨n, hn⟩ := t
  cases n with
  | zero => exact absurd ((isFirst_iff ⟨0, hn⟩).mpr (Nat.zero_mod _)) hF
  | succ n => exact (dif_pos ((isLast_iff ⟨n + 1, hn⟩).mp hL)).trans rfl

/-! ## The invariant between points -/

def PhiS (c : Dev nD) : (n : ℕ) → n ≤ cfg0.N → sProp 𝕄
  | 0, _ => Pipeline.ΦA spec0 c
  | n + 1, hn => iprop((owns (c : Thread nD τ) mSum fullShare (rowsAt V c n hn).2.2.1 ∗ owns (c : Thread nD τ) mSq fullShare (rowsAt V c n hn).2.2.2 ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) mSum fullShare (rowsAt V c n hn).2.2.1 ∗ owns (c : Thread nD τ) mSq fullShare (rowsAt V c n hn).2.2.2 ∗ otherScoped c) ∗ (∃ r, prngReg c r)) := rfl
theorem PhiS_pos (c : Dev nD) (n : ℕ) (h : n ≤ cfg0.N) (hz : n ≠ 0) :
    PhiS V c n h = iprop((owns (c : Thread nD τ) mSum fullShare (rowsAt V c (n - 1) (by omega)).2.2.1 ∗ owns (c : Thread nD τ) mSq fullShare (rowsAt V c (n - 1) (by omega)).2.2.2 ∗ otherScoped c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => blkAt V c 0 t
    | ⟨1, _⟩ => (rowsAt V c t.val t.isLt).1
    | ⟨2, _⟩ => (rowsAt V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after_in (c : Dev nD) (t : Fin cfg0.N) : (dat0 V c).after 0 t = blkAt V c 0 t := by dsimp only [dat0]
theorem after_mean (c : Dev nD) (t : Fin cfg0.N) : (dat0 V c).after 1 t = (rowsAt V c t.val t.isLt).1 := by dsimp only [dat0]
theorem after_var (c : Dev nD) (t : Fin cfg0.N) : (dat0 V c).after 2 t = (rowsAt V c t.val t.isLt).2.1 := by dsimp only [dat0]
theorem before_in (c : Dev nD) (t : Fin cfg0.N) (d) : (dat0 V c).before 0 t d = blkAt V c 0 t :=
  before_in_of V (dat0 V c) (A_eq0 V c 0) (after_in V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (mIn t) fullShare ((dat0 V c).before 0 t d))
    ∗ (∃ d, owns (c : Thread nD τ) (mMean t) fullShare ((dat0 V c).before 1 t d))
    ∗ (∃ d, owns (c : Thread nD τ) (mVar t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms of the two conditions say which of the three cases the point is in; the
    invariant hands the body the scratch rows (at anything at the first point, at what the point before left otherwise) and
    takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before_in]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (mIn t) fullShare ((dat0 V c).after 0 t) from by
    unfold Dat.leavesExact; rw [live_in t], after_in]
  by_cases h0 : t.val % 10 = 0
  · have hF : isFirst (grid0.coords t) := (isFirst_iff t).mpr h0
    have hL : ¬isLast (grid0.coords t) := fun h => by have h' := (isLast_iff t).mp h; omega
    rw [Dat.leavesExact_idle (dat0 V c) 1 t (idle_mean t hL) (noFlush_mean t hL),
      Dat.leavesExact_idle (dat0 V c) 2 t (idle_var t hL) (noFlush_var t hL)]
    rw [rowsAt_first V c t hF hL]
    unfold sumFirst sqFirst; (try dsimp only)
    have hz : t.val = 0 := by omega
    rw [PhiS_castSucc V c t, PhiS_zero V c _ _ hz, PhiA0_eq]
    iintro ⟨⟨⟨HS0, HS1, Hoth⟩, Hg⟩, Ho, ⟨%d0, H0⟩, ⟨%d1, H1⟩, ⟨%d2, H2⟩⟩
    iapply ((RF c t hF hL (blkAt V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (cover_sum_first c t hF hL _)
        isplitl [HS1]
        · unfold owns; iexists _; isplitr
          swap; · iexact HS1
          ipureintro; exact View.read_writes_of_cover _ _ _ _ _ (cover_sq_first c t hF hL _)
        iexact Hoth
      iexact Hg
    isplitl [Ho]; · iexact Ho
    isplitl [H0]; · iexact H0
    isplitl [H1]; · iexists _; iexact H1
    iexists _; iexact H2
  · have hF : ¬isFirst (grid0.coords t) := fun h => h0 ((isFirst_iff t).mp h)
    have hz : t.val ≠ 0 := fun h => h0 (by rw [h])
    by_cases h1 : t.val % 10 = 9
    · have hL : isLast (grid0.coords t) := (isLast_iff t).mpr h1
      rw [show (dat0 V c).leavesExact 1 t = owns (c : Thread nD τ) (mMean t) fullShare ((dat0 V c).after 1 t) from by
        unfold Dat.leavesExact; rw [live_mean t hL], after_mean]
      rw [show (dat0 V c).leavesExact 2 t = owns (c : Thread nD τ) (mVar t) fullShare ((dat0 V c).after 2 t) from by
        unfold Dat.leavesExact; rw [live_var t hL], after_var]
      rw [rowsAt_last V c t hF hL]
      unfold meanLast varLast sumLast sqLast; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((RL c t hF hL (blkAt V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (cover_sum_last c t hF hL _ _ _)
          isplitl [HS1]
          · unfold owns; iexists _; isplitr
            swap; · iexact HS1
            ipureintro; exact View.read_writes_of_cover _ _ _ _ _ (cover_sq_last c t hF hL _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover_mean_last c t hF hL _ _ _)
      unfold owns; iexists _; isplitr
      swap; · iexact H2
      ipureintro; exact View.read_writes_of_cover _ _ _ _ _ (cover_var_last c t hF hL _ _ _)
    · have hL : ¬isLast (grid0.coords t) := fun h => h1 ((isLast_iff t).mp h)
      rw [Dat.leavesExact_idle (dat0 V c) 1 t (idle_mean t hL) (noFlush_mean t hL),
        Dat.leavesExact_idle (dat0 V c) 2 t (idle_var t hL) (noFlush_var t hL)]
      rw [rowsAt_mid V c t hF hL]
      unfold sumMid sqMid; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((RM c t hF hL (blkAt V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (cover_sum_mid c t hF hL _ _ _)
          isplitl [HS1]
          · unfold owns; iexists _; isplitr
            swap; · iexact HS1
            ipureintro; exact View.read_writes_of_cover _ _ _ _ _ (cover_sq_mid c t hF hL _ _ _)
          iexact Hoth
        iexact Hg
      isplitl [Ho]; · iexact Ho
      isplitl [H0]; · iexact H0
      isplitl [H1]; · iexists _; iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch rows' contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.Frames

end
-- ==== Proof.BlendFrame.lean ====
/-
  The normalise-and-blend kernel (the second kernel region), on arbitrary whole staging buffers, and the region's proof
  data. Each of its 25 grid points sees a block of 2000 rows of the summed array and of the second input array, the two
  statistics rows, the scale and shift rows and the whole transposed weight; it loads them all, computes one value and
  stores it over the whole output block. The body keeps nothing between points, so the region's invariant is the plain one:
  every scoped buffer it does not stage at anything, the generator register at some state.
-/
import proofs.«159637_j21912923144342_2_alg».proof.Proof.Gen.KernelIdeal.Launch
import proofs.«159637_j21912923144342_2_alg».proof.Proof.Gen.KernelIdeal.Skeleton
import proofs.«159637_j21912923144342_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every load and the store take the whole buffer -/

abbrev rN : Rect S2000x128 := Rect.unit (s := S2000x128) ![0, 0] S2000x128.size inb_S2000x128_S2000x128_0_0
abbrev rF : Rect S1x128 := Rect.unit (s := S1x128) ![0, 0] S1x128.size inb_S1x128_S1x128_0_0
abbrev rW : Rect S128x128 := Rect.unit (s := S128x128) ![0, 0] S128x128.size inb_S128x128_S128x128_0_0

/-- The output block after the body, from the seven input blocks: its one store. -/
def outBlk (x0 : Vec F S2000x128 .f32) (x1 : Vec F S2000x128 .f32) (x2 : Vec F S1x128 .f32) (x3 : Vec F S1x128 .f32) (x4 : Vec F S1x128 .f32) (x5 : Vec F S1x128 .f32) (x6 : Vec F S128x128 .f32) : Vec F S2000x128 .f32 :=
  View.canon [⟨rN, k1_pay1 (k1_pay2 (View.ld x0 rN) (View.ld x2 rF) (View.ld x3 rF) (View.ld x4 rF) (View.ld x5 rF) (View.ld x1 rN) (View.ld x6 rW)) (k1_pay3 (F := F))⟩]

theorem cover_out (p0 : Vec F S2000x128 .f32) (y : S2000x128.Idx) :
    ∃ pc ∈ ([⟨rN, p0⟩] : List (View.Piece (Elt F) S2000x128 .f32)), y ∈ pc.1.set :=
  View.cover_of_tiled [⟨rN, p0⟩] S2000x128.size (by rfl) y

/-! ## The body's triple -/

set_option maxHeartbeats 1000000 in
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S128x128 .f32) (harg7 : arg7.IsWhole) (arg8 : Memref sig .tc .vmem S2000x128 .f32) (harg8 : arg8.IsWhole)
    (x0 : Vec F S2000x128 .f32) (x1 : Vec F S2000x128 .f32) (x2 : Vec F S1x128 .f32) (x3 : Vec F S1x128 .f32) (x4 : Vec F S1x128 .f32) (x5 : Vec F S1x128 .f32) (x6 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E (cc1__bn_blend_kernel i arg1 harg1 arg2 harg2 arg3 harg3 arg4 harg4 arg5 harg5 arg6 harg6 arg7 harg7 arg8 harg8) K := by
  simp only [cc1__bn_blend_kernel_eq_skeleton]; unfold cc1__bn_blend_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover_out _)

/-! ## The region's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => outBlk (blk1 V c 0 t) (blk1 V c 1 t) (blk1 V c 2 t) (blk1 V c 3 t) (blk1 V c 4 t) (blk1 V c 5 t) (blk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = outBlk (blk1 V c 0 t) (blk1 V c 1 t) (blk1 V c 2 t) (blk1 V c 3 t) (blk1 V c 4 t) (blk1 V c 5 t) (blk1 V c 6 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (blk1 V c 0 t) (blk1 V c 1 t) (blk1 V c 2 t) (blk1 V c 3 t) (blk1 V c 4 t) (blk1 V c 5 t) (blk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Frames

end
-- ==== Proof.MainRun.lean ====
/-
  The whole program as a sequence of four segments — the host operations that build the summed array, the statistics
  region, three host operations (two reshapes and a transpose), the normalise-and-blend region — and its run: from any
  memory with zero counters every weakly fair execution terminates without a fault, the eight argument arrays end as they
  were launched, and the result array ends at what the second region's write-backs leave, over the buffer contents at each
  segment boundary (a fold from the launch memory: a host stretch applies its operations, a region replaces its output
  arrays by what its pipeline leaves and keeps every other buffer).
-/
import proofs.«159637_j21912923144342_2_alg».proof.Proof.StatsFrame
import proofs.«159637_j21912923144342_2_alg».proof.Proof.BlendFrame
import proofs.«159637_j21912923144342_2_alg».proof.Proof.Gen.KernelIdeal.Regions
import Idealize.ShloMosaic.Lib.Pipeline.RegionsLoop

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch: the statistics region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the statistics region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the blend region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the blend region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one, no region changes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The result array ends at what the blend region's write-backs leave. -/
theorem W4_result (c : Dev nD) : W4 m ρ c (Proc.devRef .tc main_v16) = (dat1 (V3 m ρ) c).arrAt 7 cfg1.N :=
  W4_arr m ρ c 7

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from hin0 (V1 m ρ) c)
    unfold Pipeline.ΦA
    iintro ⟨Hp, -, Hr⟩
    isplitl [Hr]; · iexact Hr
    iexact Hp
  hout c := by
    rw [Pipeline.ownSems0_none]
    refine BIBase.Entails.trans (show ((pdats m ρ 0 c).Φ (Fin.last _) : sProp 𝕄) ⊢ Pipeline.ΦA spec0 c from hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution terminates, nothing faulting; the result array ends at the last boundary's
    contents and every argument array as launched. -/
theorem run_all : θ_run defs (onTc (τ := τ) (main (F := F))) ⟨m, fun _ => 0, ρ⟩ (fun r => ∀ c : Dev nD,
      r.2.mem ((c.tc : Thread nD τ).loc main_v16) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v16 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The frame: the argument arrays end unchanged. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.KernelIdeal.Frames

end
-- ==== Proof.StatsPieces.lean ====
/-
  What the three runs of the statistics body leave, as the body's own arithmetic: every store of the body covers its whole
  row, and every load takes a whole buffer, so each row ends at one payload of the values loaded.
    * after the first point the running rows are the block's column sums added to the zero rows;
    * after a later point they are the block's column sums added to what the point before left;
    * the last point's output rows are the scaled total and the scaled total of squares less the squared scaled total.
-/
import proofs.«159637_j21912923144342_2_alg».proof.Proof.StatsFrame
import Idealize.ShloMosaic.Lib.Pipeline.Value

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

theorem read_scratch_sum (xs : Vec F S1x128 .f32) (h : mSum.IsWhole) : View.read (Elt F) (View.whole cc0_scratch0) (h.unread xs) = xs :=
  h.read_unread xs
theorem read_scratch_sq (xs : Vec F S1x128 .f32) (h : mSq.IsWhole) : View.read (Elt F) (View.whole cc0_scratch1) (h.unread xs) = xs :=
  h.read_unread xs

theorem sumFirst_eq (c : Dev nD) (t : Fin cfg0.N) (hF : isFirst (grid0.coords t)) (hL : ¬isLast (grid0.coords t))
    (x0 : Vec F S5000x128 .f32) :
    sumFirst c t hF hL x0 = k0_pay4 x0 (k0_pay1 (F := F)) := by
  unfold sumFirst
  rw [View.read_writes_eq_canon _ _ _ (cover_sum_first c t hF hL x0)]
  unfold RF runFirst
  dsimp only
  sl_unfold_words
  rw [View.canon_cons_unit_zero hz2]
  simp only [View.readAt_eq_ld, Memref.IsWhole.read_unread, View.ld_unit_zero (S := S5000x128) hz2, View.ld_unit_zero (S := S1x128) hz2]
  rw [View.readCov_unit_zero (S := S1x128) _ hz2]

theorem sqFirst_eq (c : Dev nD) (t : Fin cfg0.N) (hF : isFirst (grid0.coords t)) (hL : ¬isLast (grid0.coords t))
    (x0 : Vec F S5000x128 .f32) :
    sqFirst c t hF hL x0 = k0_pay5 x0 (k0_pay2 (F := F)) := by
  unfold sqFirst
  rw [View.read_writes_eq_canon _ _ _ (cover_sq_first c t hF hL x0)]
  unfold RF runFirst
  dsimp only
  sl_unfold_words
  rw [View.canon_cons_unit_zero hz2]
  simp only [View.readAt_eq_ld, Memref.IsWhole.read_unread, View.ld_unit_zero (S := S5000x128) hz2, View.ld_unit_zero (S := S1x128) hz2]
  rw [View.readCov_unit_zero (S := S1x128) _ hz2]

theorem sumMid_eq (c : Dev nD) (t : Fin cfg0.N) (hF : ¬isFirst (grid0.coords t)) (hL : ¬isLast (grid0.coords t))
    (x0 : Vec F S5000x128 .f32) (xs0 xs1 : Vec F S1x128 .f32) :
    sumMid c t hF hL x0 xs0 xs1 = k0_pay4 x0 xs0 := by
  unfold sumMid
  rw [View.read_writes_eq_canon _ _ _ (cover_sum_mid c t hF hL x0 xs0 xs1)]
  unfold RM runMid
  dsimp only
  sl_unfold_words
  rw [View.canon_cons_unit_zero hz2]
  simp only [View.readAt_eq_ld, Memref.IsWhole.read_unread, View.ld_unit_zero (S := S5000x128) hz2, View.ld_unit_zero (S := S1x128) hz2]
  rw [read_scratch_sum]

theorem sqMid_eq (c : Dev nD) (t : Fin cfg0.N) (hF : ¬isFirst (grid0.coords t)) (hL : ¬isLast (grid0.coords t))
    (x0 : Vec F S5000x128 .f32) (xs0 xs1 : Vec F S1x128 .f32) :
    sqMid c t hF hL x0 xs0 xs1 = k0_pay5 x0 xs1 := by
  unfold sqMid
  rw [View.read_writes_eq_canon _ _ _ (cover_sq_mid c t hF hL x0 xs0 xs1)]
  unfold RM runMid
  dsimp only
  sl_unfold_words
  rw [View.canon_cons_unit_zero hz2]
  simp only [View.readAt_eq_ld, Memref.IsWhole.read_unread, View.ld_unit_zero (S := S5000x128) hz2, View.ld_unit_zero (S := S1x128) hz2]
  rw [read_scratch_sq]

theorem sumLast_eq (c : Dev nD) (t : Fin cfg0.N) (hF : ¬isFirst (grid0.coords t)) (hL : isLast (grid0.coords t))
    (x0 : Vec F S5000x128 .f32) (xs0 xs1 : Vec F S1x128 .f32) :
    sumLast c t hF hL x0 xs0 xs1 = k0_pay4 x0 xs0 := by
  unfold sumLast
  rw [View.read_writes_eq_canon _ _ _ (cover_sum_last c t hF hL x0 xs0 xs1)]
  unfold RL runLast
  dsimp only
  sl_unfold_words
  rw [View.canon_cons_unit_zero hz2]
  simp only [View.readAt_eq_ld, Memref.IsWhole.read_unread, View.ld_unit_zero (S := S5000x128) hz2, View.ld_unit_zero (S := S1x128) hz2]
  rw [read_scratch_sum]

theorem sqLast_eq (c : Dev nD) (t : Fin cfg0.N) (hF : ¬isFirst (grid0.coords t)) (hL : isLast (grid0.coords t))
    (x0 : Vec F S5000x128 .f32) (xs0 xs1 : Vec F S1x128 .f32) :
    sqLast c t hF hL x0 xs0 xs1 = k0_pay5 x0 xs1 := by
  unfold sqLast
  rw [View.read_writes_eq_canon _ _ _ (cover_sq_last c t hF hL x0 xs0 xs1)]
  unfold RL runLast
  dsimp only
  sl_unfold_words
  rw [View.canon_cons_unit_zero hz2]
  simp only [View.readAt_eq_ld, Memref.IsWhole.read_unread, View.ld_unit_zero (S := S5000x128) hz2, View.ld_unit_zero (S := S1x128) hz2]
  rw [read_scratch_sq]

theorem meanLast_eq (c : Dev nD) (t : Fin cfg0.N) (hF : ¬isFirst (grid0.coords t)) (hL : isLast (grid0.coords t))
    (x0 : Vec F S5000x128 .f32) (xs0 xs1 : Vec F S1x128 .f32) :
    meanLast c t hF hL x0 xs0 xs1 = k0_pay6 (k0_pay4 x0 xs0) := by
  unfold meanLast
  rw [View.read_writes_eq_canon _ _ _ (cover_mean_last c t hF hL x0 xs0 xs1)]
  unfold RL runLast
  dsimp only
  sl_unfold_words
  rw [View.canon_cons_unit_zero hz2]
  simp only [View.readAt_eq_ld, Memref.IsWhole.read_unread, View.ld_unit_zero (S := S5000x128) hz2, View.ld_unit_zero (S := S1x128) hz2]
  rw [read_scratch_sum, View.readCov_unit_zero (S := S1x128) _ hz2]

theorem varLast_eq (c : Dev nD) (t : Fin cfg0.N) (hF : ¬isFirst (grid0.coords t)) (hL : isLast (grid0.coords t))
    (x0 : Vec F S5000x128 .f32) (xs0 xs1 : Vec F S1x128 .f32) :
    varLast c t hF hL x0 xs0 xs1 = k0_pay7 (k0_pay4 x0 xs0) (k0_pay5 x0 xs1) := by
  unfold varLast
  rw [View.read_writes_eq_canon _ _ _ (cover_var_last c t hF hL x0 xs0 xs1)]
  unfold RL runLast
  dsimp only
  sl_unfold_words
  rw [View.canon_cons_unit_zero hz2]
  simp only [View.readAt_eq_ld, Memref.IsWhole.read_unread, View.ld_unit_zero (S := S5000x128) hz2, View.ld_unit_zero (S := S1x128) hz2]
  rw [read_scratch_sum, read_scratch_sq, View.readCov_unit_zero (S := S1x128) _ hz2, View.readCov_unit_zero (S := S1x128) _ hz2]

end Cert.KernelIdeal.Frames

end
-- ==== Proof.StatsPayload.lean ====
/-
  The statistics body's arithmetic read at an entry, on the extended reals.
  With `x` a block of 5000 rows and `s` a row of 128 entries:
    * the running-sum update at column `q` is  s(q) + ∑ₚ x(p, q);  the sum-of-squares update is  s(q) + ∑ₚ x(p, q)²;
    * the reset rows are zero;
    * the first output row is the total times the exact reciprocal 1/50000 (the named constant), the second is the scaled
      total of squares less the square of the first.
-/
import proofs.«159637_j21912923144342_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.KValue

open Cert.KernelIdeal Cert.KernelIdeal.Gen
open Idealize.ShloMosaic Idealize.ShloMosaic.ValueIdx
open scoped BigOperators

/-- The named reciprocal denotes the rational 1/50000. -/
theorem inv_n : Named.named (F := Ideal) κ "inv_50000" (φ := .f32) 0x37A7C5AC#32 = ((1 / 50000 : ℝ) : EReal) :=
  IdealRules.named_const.ideal_named_scalar _ _ _ _ rfl

/-- The reduced column index `q` with row `k` put back is (k, q). -/
theorem lift_rows (h : S5000x128.Reduces [0] S128) (q : Fin 128) (k : Fin (S5000x128.size 0)) :
    h.lift (ix1 q) k = ix2 (⟨k.val, k.isLt⟩ : Fin 5000) q := by
  funext c; apply Fin.ext
  fin_cases c <;> rfl

/-- A column sum of a 5000-row block, cast to a row, read at (0, q). -/
theorem colsum_row (y : FVec Ideal S5000x128 .f32) (h : S5000x128.Reduces [0] S128) (hφ : FKind.Formats FTy.f32)
    (hacc : (0x00000000#32 : BitVec 32) = 0x00000000#32) (hsc : S128.ShapeCasts S1x128) (q : Fin 128) :
    shapeCast S1x128 (multiReduction (F := Ideal) .add [0] S128 y 0x00000000#32 h hφ hacc) hsc (ix2 (0 : Fin 1) q)
      = ∑ p : Fin 5000, y (ix2 p q) := by
  refine (shapeCast_a_1a_apply _ hsc 0 q).trans ?_
  refine (Ideal.multiReduction_add_single y 0x00000000#32 h hφ hacc (ix1 q)).trans ?_
  exact Finset.sum_congr rfl fun k _ => congrArg y (lift_rows h q k)

theorem pay1_apply (q : Fin 128) : k0_pay1 (F := Ideal) (ix2 (0 : Fin 1) q) = 0 := by
  unfold k0_pay1
  refine (congrFun (shapeCast_self _ _) _).trans ?_
  exact Ideal.ofBits_zero_f32

theorem pay2_apply (q : Fin 128) : k0_pay2 (F := Ideal) (ix2 (0 : Fin 1) q) = 0 := by
  unfold k0_pay2
  refine (congrFun (shapeCast_self _ _) _).trans ?_
  exact Ideal.ofBits_zero_f32

theorem pay3_eq (x : Vec Ideal S5000x128 .f32) : k0_pay3 (F := Ideal) x = x := by
  unfold k0_pay3
  exact shapeCast_self _ _

theorem pay4_apply (x : Vec Ideal S5000x128 .f32) (s : Vec Ideal S1x128 .f32) (q : Fin 128) :
    k0_pay4 (F := Ideal) x s (ix2 (0 : Fin 1) q) = s (ix2 (0 : Fin 1) q) + ∑ p : Fin 5000, x (ix2 p q) := by
  unfold k0_pay4
  refine (congrFun (shapeCast_self _ _) _).trans ?_
  show s (ix2 (0 : Fin 1) q) + _ = _
  refine congrArg (s (ix2 (0 : Fin 1) q) + ·) ?_
  refine (colsum_row _ _ _ _ _ q).trans ?_
  rw [pay3_eq]

theorem pay5_apply (x : Vec Ideal S5000x128 .f32) (s : Vec Ideal S1x128 .f32) (q : Fin 128) :
    k0_pay5 (F := Ideal) x s (ix2 (0 : Fin 1) q) = s (ix2 (0 : Fin 1) q) + ∑ p : Fin 5000, x (ix2 p q) * x (ix2 p q) := by
  unfold k0_pay5
  refine (congrFun (shapeCast_self _ _) _).trans ?_
  show s (ix2 (0 : Fin 1) q) + _ = _
  refine congrArg (s (ix2 (0 : Fin 1) q) + ·) ?_
  refine (colsum_row _ _ _ _ _ q).trans ?_
  rw [pay3_eq]
  rfl

theorem pay6_apply (s : Vec Ideal S1x128 .f32) (i : S1x128.Idx) :
    k0_pay6 (F := Ideal) s i = s i * ((1 / 50000 : ℝ) : EReal) := by
  unfold k0_pay6
  show s i * Named.named (F := Ideal) κ "inv_50000" (φ := .f32) 0x37A7C5AC#32 = _
  rw [inv_n]

theorem pay7_apply (s sq : Vec Ideal S1x128 .f32) (i : S1x128.Idx) :
    k0_pay7 (F := Ideal) s sq i
      = sq i * ((1 / 50000 : ℝ) : EReal) - (s i * ((1 / 50000 : ℝ) : EReal)) * (s i * ((1 / 50000 : ℝ) : EReal)) := by
  unfold k0_pay7
  show sq i * Named.named (F := Ideal) κ "inv_50000" (φ := .f32) 0x37A7C5AC#32 - k0_pay6 (F := Ideal) s i * k0_pay6 (F := Ideal) s i = _
  rw [inv_n, pay6_apply]

end Cert.KernelIdeal.KValue

end
-- ==== Proof.BnSpec.lean ====
/-
  Batch normalisation over the rows of a 50000 × 128 array, followed by two blends and a rectifier — the function both
  programs compute, written once, index by index, on the extended reals.

  Given an array `h` (rows are nodes, columns are features), a second array `x0`, a 128 × 128 weight `W`, a scale `g` and a
  shift `b` per column, and per column a centre `mu` and a spread `v`:
    n(r, j)   = ((h(r, j) − mu j) · rsqrt(v j + ε)) · g j + b j
    y(r, j)   = c₉ · n(r, j) + c₁ · x0(r, j)
    out(r, j) = max (c₅ · y(r, j) + c₅ · ∑ₖ y(r, k) · W(j, k)) 0
  with ε, c₉, c₁, c₅ the f32 literals 1e-5, 0.9, 0.1 and 0.5 kept as their bit patterns (the same word on both sides is never
  evaluated). The two programs differ only in how they obtain `mu` and `v` from `h`:
    * column sums of `h` and of `h²` scaled by 1/50000, the spread as  E[h²] − (E[h])²,
    * the column sum divided by 50000, the spread as the mean of the squared deviations  E[(h − E[h])²].
  For a real-valued `h` the two agree: that is the textbook identity  ∑ (h − μ)² = ∑ h² − n μ²  with  n μ = ∑ h.
-/
import Idealize.ShloMosaic.PureOps.Ideal
import Idealize.ShloMosaic.Lib.ValueIdx

noncomputable section

namespace Cert.BnBlend

open Idealize.ShloMosaic Idealize.ShloMosaic.ValueIdx
open scoped BigOperators

/-- The node-by-feature arrays, the weight, the per-column vectors. -/
abbrev ShNF : Shape := ⟨2, ![50000, 128]⟩
abbrev ShFF : Shape := ⟨2, ![128, 128]⟩
abbrev ShF : Shape := ⟨1, ![128]⟩

/-- The literals the two programs share, as the extended reals their patterns denote. -/
abbrev eps : EReal := Ideal.ofBits .f32 0x3727C5AC#32
abbrev c9 : EReal := Ideal.ofBits .f32 0x3F666666#32
abbrev c1 : EReal := Ideal.ofBits .f32 0x3DCCCCCD#32
abbrev c5 : EReal := Ideal.ofBits .f32 0x3F000000#32
abbrev zero : EReal := Ideal.ofBits .f32 0x00000000#32

/-- Column `j`'s sum of `h` over the 50000 rows. -/
def colSum (h : ShNF.Idx → EReal) (j : Fin 128) : EReal := ∑ r : Fin 50000, h (ix2 r j)
/-- Column `j`'s sum of squares. -/
def colSumSq (h : ShNF.Idx → EReal) (j : Fin 128) : EReal := ∑ r : Fin 50000, h (ix2 r j) * h (ix2 r j)

/-- The centre as the column sum scaled by the exact reciprocal 1/50000. -/
def muScaled (h : ShNF.Idx → EReal) (j : Fin 128) : EReal := colSum h j * ((1 / 50000 : ℝ) : EReal)
/-- The spread as  E[h²] − (E[h])². -/
def varMoments (h : ShNF.Idx → EReal) (j : Fin 128) : EReal :=
  colSumSq h j * ((1 / 50000 : ℝ) : EReal) - muScaled h j * muScaled h j

/-- The centre as the column sum divided by 50000. -/
def muDiv (h : ShNF.Idx → EReal) (j : Fin 128) : EReal := Ideal.div (colSum h j) ((50000 : ℝ) : EReal)
/-- The spread as the mean of the squared deviations from `muDiv`. -/
def varDev (h : ShNF.Idx → EReal) (j : Fin 128) : EReal :=
  Ideal.div (∑ r : Fin 50000, (h (ix2 r j) - muDiv h j) * (h (ix2 r j) - muDiv h j)) ((50000 : ℝ) : EReal)

/-- The normalised, scaled and shifted entry blended with `x0`. -/
def blend (h x0 : ShNF.Idx → EReal) (g b : ShF.Idx → EReal) (mu v : Fin 128 → EReal) (r : Fin 50000) (j : Fin 128) : EReal :=
  c9 * (((h (ix2 r j) - mu j) * Ideal.rsqrt (v j + eps)) * g (ix1 j) + b (ix1 j)) + c1 * x0 (ix2 r j)

/-- The result: half the blend plus half its product with the transposed weight, rectified. -/
def out (h x0 : ShNF.Idx → EReal) (W : ShFF.Idx → EReal) (g b : ShF.Idx → EReal) (mu v : Fin 128 → EReal) :
    ShNF.Idx → EReal := fun i =>
  max (c5 * blend h x0 g b mu v (i 0) (i 1) + c5 * ∑ k : Fin 128, blend h x0 g b mu v (i 0) k * W (ix2 (i 1) k)) zero

end Cert.BnBlend

end
-- ==== Proof.StatsSums.lean ====
/-
  The running rows of the statistics region are partial column sums.

  The 50000 rows of the input array are ten consecutive blocks of 5000; point `t` of the grid sees block `t`. After point
  `n` the running-sum row at column `q` is the sum over the first `n + 1` blocks of the block's column sum, accumulated in
  that order from zero — and the ten block sums together are the column sum over all 50000 rows (the rows re-indexed as
  pairs (block, row within the block)). The same holds for the squares.
-/
import proofs.«159637_j21912923144342_2_alg».proof.Proof.StatsPieces
import proofs.«159637_j21912923144342_2_alg».proof.Proof.StatsPayload
import proofs.«159637_j21912923144342_2_alg».proof.Proof.BnSpec

set_option maxRecDepth 16384

noncomputable section

namespace Cert.KernelIdeal.KValue

open Cert.KernelIdeal Cert.KernelIdeal.Gen Cert.KernelIdeal.Frames
open Idealize.ShloMosaic Idealize.ShloMosaic.TcCoe Idealize.ShloMosaic.ValueIdx
open Idealize.SL Idealize.SL.Sem
open Idealize.ShloMosaic.Pipeline (Dat Cfg Window)
open scoped BigOperators

open Cert.BnBlend

variable (V : (c : Dev nD) → (b : Ref sig .tc) → Buf (Elt Ideal) ((c : Thread nD τ).loc b))

/-! ## The blocks of the input array -/

/-- The input window's block index: the point's number on the row axis, 0 on the column axis. -/
theorem idx_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry (p, q) of the block point `t` sees is entry (5000 t + p, q) of the array. -/
theorem blk_read (c : Dev nD) (t : Fin cfg0.N) (p : Fin 5000) (q : Fin 128) :
    blkAt V c 0 t (ix2 p q)
      = (V c main_v11 : ShNF.Idx → EReal) (ix2 (⟨5000 * t.val + p.val, by have h1 := t.isLt; have h2 : cfg0.N = 10 := N_0; have h3 := p.isLt; omega⟩ : Fin 50000) q) := by
  unfold blkAt
  show (V c main_v11 : ShNF.Idx → EReal) (((cfg0.win 0).blk t).view.emb (ix2 p q)) = _
  refine congrArg (V c main_v11 : ShNF.Idx → EReal) ?_
  obtain ⟨e0, e1⟩ := idx_rows t
  funext a; apply Fin.ext
  match a with
  | ⟨0, _⟩ => show win0_0.index t (0 : Fin 2) * 5000 + 1 * p.val = 5000 * t.val + p.val; omega
  | ⟨1, _⟩ => show win0_0.index t (1 : Fin 2) * 128 + 1 * q.val = q.val; omega

/-- Block `a`'s column sum at column `q` (zero past the tenth block). -/
def blockSum (h : ShNF.Idx → EReal) (q : Fin 128) (a : ℕ) : EReal :=
  if ha : a < 10 then ∑ p : Fin 5000, h (ix2 (⟨5000 * a + p.val, by have := p.isLt; omega⟩ : Fin 50000) q) else 0
/-- Block `a`'s column sum of squares. -/
def blockSumSq (h : ShNF.Idx → EReal) (q : Fin 128) (a : ℕ) : EReal :=
  if ha : a < 10 then ∑ p : Fin 5000, h (ix2 (⟨5000 * a + p.val, by have := p.isLt; omega⟩ : Fin 50000) q) * h (ix2 (⟨5000 * a + p.val, by have := p.isLt; omega⟩ : Fin 50000) q) else 0

/-- One update of the running sum at point `t`. -/
theorem step_sum (c : Dev nD) (t : Fin cfg0.N) (s : Vec Ideal S1x128 .f32) (q : Fin 128) :
    k0_pay4 (F := Ideal) (blkAt V c 0 t) s (ix2 (0 : Fin 1) q) = s (ix2 (0 : Fin 1) q) + blockSum (V c main_v11) q t.val := by
  have ht : t.val < 10 := lt_of_lt_of_eq t.isLt (show cfg0.N = 10 from N_0)
  rw [pay4_apply]
  unfold blockSum
  rw [dif_pos ht]
  exact congrArg (s (ix2 (0 : Fin 1) q) + ·) (Finset.sum_congr rfl fun p _ => blk_read V c t p q)

/-- One update of the running sum of squares at point `t`. -/
theorem step_sq (c : Dev nD) (t : Fin cfg0.N) (s : Vec Ideal S1x128 .f32) (q : Fin 128) :
    k0_pay5 (F := Ideal) (blkAt V c 0 t) s (ix2 (0 : Fin 1) q) = s (ix2 (0 : Fin 1) q) + blockSumSq (V c main_v11) q t.val := by
  have ht : t.val < 10 := lt_of_lt_of_eq t.isLt (show cfg0.N = 10 from N_0)
  rw [pay5_apply]
  unfold blockSumSq
  rw [dif_pos ht]
  exact congrArg (s (ix2 (0 : Fin 1) q) + ·) (Finset.sum_congr rfl fun p _ => by rw [blk_read V c t p q])

/-! ## The ten blocks together are the whole column -/

/-- Rows as pairs (block, row within the block). -/
def rowEquiv : Fin 10 × Fin 5000 ≃ Fin 50000 := finProdFinEquiv.trans (finCongr (by norm_num))

theorem rowEquiv_val (a : Fin 10) (p : Fin 5000) : (rowEquiv (a, p)).val = p.val + 5000 * a.val := rfl

theorem sum_rows_blocks (f : Fin 50000 → EReal) :
    ∑ r : Fin 50000, f r = ∑ a ∈ Finset.range 10, (if ha : a < 10 then ∑ p : Fin 5000, f ⟨5000 * a + p.val, by have := p.isLt; omega⟩ else 0) := by
  rw [← Finset.sum_fin_eq_sum_range (fun a : Fin 10 => ∑ p : Fin 5000, f ⟨5000 * a.val + p.val, by have := p.isLt; have := a.isLt; omega⟩)]
  rw [← Fintype.sum_equiv rowEquiv (fun ap => f (rowEquiv ap)) f (fun _ => rfl), Fintype.sum_prod_type]
  refine Finset.sum_congr rfl fun a _ => Finset.sum_congr rfl fun p _ => congrArg f (Fin.ext ?_)
  rw [rowEquiv_val]; show p.val + 5000 * a.val = 5000 * a.val + p.val; omega

theorem blocks_total (h : ShNF.Idx → EReal) (q : Fin 128) :
    ∑ a ∈ Finset.range 10, blockSum h q a = colSum h q := by
  unfold colSum blockSum
  exact (sum_rows_blocks fun r => h (ix2 r q)).symm

theorem blocksSq_total (h : ShNF.Idx → EReal) (q : Fin 128) :
    ∑ a ∈ Finset.range 10, blockSumSq h q a = colSumSq h q := by
  unfold colSumSq blockSumSq
  exact (sum_rows_blocks fun r => h (ix2 r q) * h (ix2 r q)).symm

/-! ## The running rows after each point -/

theorem rows_partial (c : Dev nD) : ∀ (n : ℕ) (hn : n < cfg0.N) (q : Fin 128),
    (rowsAt V c n hn).2.2.1 (ix2 (0 : Fin 1) q) = ∑ a ∈ Finset.range (n + 1), blockSum (V c main_v11) q a
    ∧ (rowsAt V c n hn).2.2.2 (ix2 (0 : Fin 1) q) = ∑ a ∈ Finset.range (n + 1), blockSumSq (V c main_v11) q a := by
  intro n
  induction n with
  | zero =>
    intro hn q
    have hF : isFirst (grid0.coords ⟨0, hn⟩) := (isFirst_iff ⟨0, hn⟩).mpr (Nat.zero_mod _)
    have hL : ¬isLast (grid0.coords ⟨0, hn⟩) := fun h => by have h' := (isLast_iff ⟨0, hn⟩).mp h; (try dsimp only at h'); omega
    have e : rowsAt V c 0 hn = (idleRow, idleRow, sumFirst c ⟨0, hn⟩ hF hL (blkAt V c 0 ⟨0, hn⟩), sqFirst c ⟨0, hn⟩ hF hL (blkAt V c 0 ⟨0, hn⟩)) :=
      rowsAt_first V c ⟨0, hn⟩ hF hL
    rw [e]
    dsimp only
    rw [sumFirst_eq, sqFirst_eq, step_sum V c ⟨0, hn⟩, step_sq V c ⟨0, hn⟩, pay1_apply, pay2_apply]
    refine ⟨?_, ?_⟩
    · simp only [zero_add, Finset.sum_range_one]
    · simp only [zero_add, Finset.sum_range_one]
  | succ n ih =>
    intro hn q
    have hn' : n < cfg0.N := Nat.lt_of_succ_lt hn
    have hN : n + 1 < 10 := lt_of_lt_of_eq hn (show cfg0.N = 10 from N_0)
    have hF : ¬isFirst (grid0.coords ⟨n + 1, hn⟩) := fun h => by
      have h' := (isFirst_iff ⟨n + 1, hn⟩).mp h; (try dsimp only at h'); omega
    obtain ⟨ih1, ih2⟩ := ih hn' q
    rw [Finset.sum_range_succ _ (n + 1), Finset.sum_range_succ _ (n + 1), ← ih1, ← ih2]
    by_cases h1 : (n + 1) % 10 = 9
    · have hL : isLast (grid0.coords ⟨n + 1, hn⟩) := (isLast_iff ⟨n + 1, hn⟩).mpr h1
      have e : rowsAt V c (n + 1) hn = (
          meanLast c ⟨n + 1, hn⟩ hF hL (blkAt V c 0 ⟨n + 1, hn⟩) (rowsAt V c n hn').2.2.1 (rowsAt V c n hn').2.2.2,
          varLast c ⟨n + 1, hn⟩ hF hL (blkAt V c 0 ⟨n + 1, hn⟩) (rowsAt V c n hn').2.2.1 (rowsAt V c n hn').2.2.2,
          sumLast c ⟨n + 1, hn⟩ hF hL (blkAt V c 0 ⟨n + 1, hn⟩) (rowsAt V c n hn').2.2.1 (rowsAt V c n hn').2.2.2,
          sqLast c ⟨n + 1, hn⟩ hF hL (blkAt V c 0 ⟨n + 1, hn⟩) (rowsAt V c n hn').2.2.1 (rowsAt V c n hn').2.2.2) :=
        rowsAt_last V c ⟨n + 1, hn⟩ hF hL
      rw [e]
      dsimp only
      rw [sumLast_eq, sqLast_eq, step_sum V c ⟨n + 1, hn⟩, step_sq V c ⟨n + 1, hn⟩]
      exact ⟨rfl, rfl⟩
    · have hL : ¬isLast (grid0.coords ⟨n + 1, hn⟩) := fun h => h1 ((isLast_iff ⟨n + 1, hn⟩).mp h)
      have e : rowsAt V c (n + 1) hn = (idleRow, idleRow,
          sumMid c ⟨n + 1, hn⟩ hF hL (blkAt V c 0 ⟨n + 1, hn⟩) (rowsAt V c n hn').2.2.1 (rowsAt V c n hn').2.2.2,
          sqMid c ⟨n + 1, hn⟩ hF hL (blkAt V c 0 ⟨n + 1, hn⟩) (rowsAt V c n hn').2.2.1 (rowsAt V c n hn').2.2.2) :=
        rowsAt_mid V c ⟨n + 1, hn⟩ hF hL
      rw [e]
      dsimp only
      rw [sumMid_eq, sqMid_eq, step_sum V c ⟨n + 1, hn⟩, step_sq V c ⟨n + 1, hn⟩]
      exact ⟨rfl, rfl⟩

/-- After the last point the running rows are the column totals. -/
theorem rows_total (c : Dev nD) (t : Fin cfg0.N) (h9 : t.val % 10 = 9) (q : Fin 128) :
    (rowsAt V c t.val t.isLt).2.2.1 (ix2 (0 : Fin 1) q) = colSum (V c main_v11) q
    ∧ (rowsAt V c t.val t.isLt).2.2.2 (ix2 (0 : Fin 1) q) = colSumSq (V c main_v11) q := by
  have ht : t.val < 10 := lt_of_lt_of_eq t.isLt (show cfg0.N = 10 from N_0)
  have e9 : t.val + 1 = 10 := by omega
  obtain ⟨h1, h2⟩ := rows_partial V c t.val t.isLt q
  rw [h1, h2, e9]
  exact ⟨blocks_total _ q, blocksSq_total _ q⟩

/-- At the last point the two output rows are the scaled total and the moment form of the spread. -/
theorem rows_out (c : Dev nD) (t : Fin cfg0.N) (h9 : t.val % 10 = 9) (q : Fin 128) :
    (rowsAt V c t.val t.isLt).1 (ix2 (0 : Fin 1) q) = muScaled (V c main_v11) q
    ∧ (rowsAt V c t.val t.isLt).2.1 (ix2 (0 : Fin 1) q) = varMoments (V c main_v11) q := by
  have ht : t.val < 10 := lt_of_lt_of_eq t.isLt (show cfg0.N = 10 from N_0)
  have hL : isLast (grid0.coords t) := (isLast_iff t).mpr h9
  have hF : ¬isFirst (grid0.coords t) := fun h => by have h' := (isFirst_iff t).mp h; omega
  obtain ⟨s1, s2⟩ := rows_total V c t h9 q
  have e := rowsAt_last V c t hF hL
  rw [e] at s1 s2 ⊢
  dsimp only at s1 s2 ⊢
  rw [sumLast_eq] at s1
  rw [sqLast_eq] at s2
  rw [meanLast_eq, varLast_eq, pay6_apply, pay7_apply, s1, s2]
  exact ⟨rfl, rfl⟩

end Cert.KernelIdeal.KValue

end
-- ==== Proof.StatsFinal.lean ====
/-
  The two statistics rows after the first kernel region: the row written back at the last grid point is, at column `q`,
  the scaled column total of the summed array, respectively the moment form of its spread; the one write-back covers the
  whole row, so that is what the row's array holds when the region ends.
-/
import proofs.«159637_j21912923144342_2_alg».proof.Proof.StatsSums

set_option maxRecDepth 16384

noncomputable section

namespace Cert.KernelIdeal.KValue

open Cert.KernelIdeal Cert.KernelIdeal.Gen Cert.KernelIdeal.Frames
open Idealize.ShloMosaic Idealize.ShloMosaic.TcCoe Idealize.ShloMosaic.ValueIdx
open Idealize.SL Idealize.SL.Sem
open Idealize.ShloMosaic.Pipeline (Dat Cfg Window)
open scoped BigOperators

open Cert.BnBlend

variable (V : (c : Dev nD) → (b : Ref sig .tc) → Buf (Elt Ideal) ((c : Thread nD τ).loc b))

/-- The output windows' block indices are zero on both axes. -/
theorem idx_out : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, win0_1.index t (0 : Fin 2) = 0 ∧ win0_1.index t (1 : Fin 2) = 0
    ∧ win0_2.index t (0 : Fin 2) = 0 ∧ win0_2.index t (1 : Fin 2) = 0)

/-- The centre row and the spread row as functions of the summed array. -/
def centreRow (h : ShNF.Idx → EReal) : S1x128.Idx → EReal := fun i => muScaled h ⟨(i 1).val, idx2_lt1 i⟩
def spreadRow (h : ShNF.Idx → EReal) : S1x128.Idx → EReal := fun i => varMoments h ⟨(i 1).val, idx2_lt1 i⟩

/-- What the write-back of the mean row leaves, at the one point that writes it back. -/
theorem flushed_mean (c : Dev nD) (t : Fin cfg0.N) (hf : (cfg0.win 1).flush t = true) :
    (dat0 V c).flushed 1 t = ((cfg0.win 1).blk t).view.read (Elt Ideal) (centreRow (V c main_v11)) := by
  have h9 : t.val % 10 = 9 := (flush0_1 t).mp hf
  show (cfg0.win 1).cut (grid0.coords t) ((dat0 V c).after 1 t) = _
  rw [after_mean]
  obtain ⟨e0, e1, e2, e3⟩ := idx_out t
  refine funext fun (j : S1x128.Idx) => ?_
  obtain ⟨u, q, rfl⟩ : ∃ (u : Fin 1) (q : Fin 128), j = ix2 u q := ⟨j 0, j 1, eq_ix2 j⟩
  have hu : u = 0 := Subsingleton.elim _ _
  subst hu
  show (rowsAt V c t.val t.isLt).1 (ix2 (0 : Fin 1) q) = centreRow (V c main_v11) (((cfg0.win 1).blk t).view.emb (ix2 (0 : Fin 1) q))
  rw [(rows_out V c t h9 q).1]
  unfold centreRow
  refine congrArg _ (Fin.ext ?_)
  show q.val = win0_1.index t (1 : Fin 2) * 128 + 1 * q.val
  omega

theorem mem_mean (t : Fin cfg0.N) (i : S1x128.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v12_0).slice (win0_1.rect t)).set ↔ _
  rw [View.set_slice_whole, Rect.mem_set_unit]
  exact Iff.rfl

theorem cover_mean (i : S1x128.Idx) : ∃ t : Fin cfg0.N, (cfg0.win 1).flush t = true ∧ i ∈ ((cfg0.win 1).blk t).view.set := by
  refine ⟨t0_9, (flush0_1 t0_9).mpr (by decide), ?_⟩
  rw [mem_mean]
  obtain ⟨e0, e1, e2, e3⟩ := idx_out t0_9
  have h0 : (i 0).val < 1 := idx2_lt0 i
  have h1 : (i 1).val < 128 := idx2_lt1 i
  intro a
  match a with
  | ⟨0, _⟩ => show win0_1.index t0_9 (0 : Fin 2) * 1 ≤ (i 0).val ∧ (i 0).val < win0_1.index t0_9 (0 : Fin 2) * 1 + 1; omega
  | ⟨1, _⟩ => show win0_1.index t0_9 (1 : Fin 2) * 128 ≤ (i 1).val ∧ (i 1).val < win0_1.index t0_9 (1 : Fin 2) * 128 + 128; omega

/-- The mean row's array after the region. -/
theorem mean_final (c : Dev nD) : (dat0 V c).arrAt 1 cfg0.N = centreRow (V c main_v11) :=
  (dat0 V c).arrAt_eq_of_cover 1 (centreRow (V c main_v11)) (fun t hf => flushed_mean V c t hf) cover_mean

/-- What the write-back of the var row leaves, at the one point that writes it back. -/
theorem flushed_var (c : Dev nD) (t : Fin cfg0.N) (hf : (cfg0.win 2).flush t = true) :
    (dat0 V c).flushed 2 t = ((cfg0.win 2).blk t).view.read (Elt Ideal) (spreadRow (V c main_v11)) := by
  have h9 : t.val % 10 = 9 := (flush0_2 t).mp hf
  show (cfg0.win 2).cut (grid0.coords t) ((dat0 V c).after 2 t) = _
  rw [after_var]
  obtain ⟨e0, e1, e2, e3⟩ := idx_out t
  refine funext fun (j : S1x128.Idx) => ?_
  obtain ⟨u, q, rfl⟩ : ∃ (u : Fin 1) (q : Fin 128), j = ix2 u q := ⟨j 0, j 1, eq_ix2 j⟩
  have hu : u = 0 := Subsingleton.elim _ _
  subst hu
  show (rowsAt V c t.val t.isLt).2.1 (ix2 (0 : Fin 1) q) = spreadRow (V c main_v11) (((cfg0.win 2).blk t).view.emb (ix2 (0 : Fin 1) q))
  rw [(rows_out V c t h9 q).2]
  unfold spreadRow
  refine congrArg _ (Fin.ext ?_)
  show q.val = win0_2.index t (1 : Fin 2) * 128 + 1 * q.val
  omega

theorem mem_var (t : Fin cfg0.N) (i : S1x128.Idx) :
    i ∈ ((cfg0.win 2).blk t).view.set ↔ ∀ a : Fin 2, win0_2.index t a * S1x128.size a ≤ (i a).val ∧ (i a).val < win0_2.index t a * S1x128.size a + S1x128.size a := by
  show i ∈ ((View.whole main_v12_1).slice (win0_2.rect t)).set ↔ _
  rw [View.set_slice_whole, Rect.mem_set_unit]
  exact Iff.rfl

theorem cover_var (i : S1x128.Idx) : ∃ t : Fin cfg0.N, (cfg0.win 2).flush t = true ∧ i ∈ ((cfg0.win 2).blk t).view.set := by
  refine ⟨t0_9, (flush0_2 t0_9).mpr (by decide), ?_⟩
  rw [mem_var]
  obtain ⟨e0, e1, e2, e3⟩ := idx_out t0_9
  have h0 : (i 0).val < 1 := idx2_lt0 i
  have h1 : (i 1).val < 128 := idx2_lt1 i
  intro a
  match a with
  | ⟨0, _⟩ => show win0_2.index t0_9 (0 : Fin 2) * 1 ≤ (i 0).val ∧ (i 0).val < win0_2.index t0_9 (0 : Fin 2) * 1 + 1; omega
  | ⟨1, _⟩ => show win0_2.index t0_9 (1 : Fin 2) * 128 ≤ (i 1).val ∧ (i 1).val < win0_2.index t0_9 (1 : Fin 2) * 128 + 128; omega

/-- The var row's array after the region. -/
theorem var_final (c : Dev nD) : (dat0 V c).arrAt 2 cfg0.N = spreadRow (V c main_v11) :=
  (dat0 V c).arrAt_eq_of_cover 2 (spreadRow (V c main_v11)) (fun t hf => flushed_var V c t hf) cover_var

end Cert.KernelIdeal.KValue

end
-- ==== Proof.BlendPayload.lean ====
/-
  The arithmetic of the normalise-and-blend kernel read at one entry of its block, on the extended reals.
-/
import proofs.«159637_j21912923144342_2_alg».proof.Proof.Gen.KernelIdeal.Skeleton
import proofs.«159637_j21912923144342_2_alg».proof.Proof.BnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.ShloMosaic.ValueIdx
open Cert.BnBlend (eps c9 c1 c5 zero)
open scoped BigOperators

/-! ## The matrix product at an entry -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the product into the zero accumulator: row p of the left operand against column q of the right. -/
theorem matmul_at {φ₁ φ₂ : FTy} (a : FVec Ideal S2000x128 φ₁) (b : FVec Ideal S128x128 φ₂) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  show FloatOps.matmul dot_S2000x128_S128x128_S2000x128_1_0_0_1_n_n none a b (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The kernel's arithmetic at an entry -/

/-- The blended entry: the summed array's entry centred, scaled by the reciprocal root of the spread, scaled and shifted
    per column, then mixed with the second array's entry. -/
def mixAt (x0 x1 : Vec Ideal S2000x128 .f32) (x2 x3 x4 x5 : Vec Ideal S1x128 .f32) (p : Fin 2000) (q : Fin 128) : EReal :=
  c9 * (((x0 (ix2 p q) - x2 (ix2 (0 : Fin 1) q)) * Ideal.rsqrt (x3 (ix2 (0 : Fin 1) q) + eps)) * x4 (ix2 (0 : Fin 1) q)
      + x5 (ix2 (0 : Fin 1) q)) + c1 * x1 (ix2 p q)

/-- The same as a block: what the kernel holds before the product. -/
def mixBlk (x0 x1 : Vec Ideal S2000x128 .f32) (x2 x3 x4 x5 : Vec Ideal S1x128 .f32) : FVec Ideal S2000x128 .f32 :=
  addf (mulf (broadcast S2000x128 (Scalar.ofBits .f32 0x3F666666#32))
      (addf (mulf (mulf (subf (shapeCast S2000x128 x0 shapeCasts_S2000x128_S2000x128)
                (broadcastTo S2000x128 (shapeCast S1x128 x2 shapeCasts_S1x128_S1x128) broadcasts_S1x128_S2000x128))
              (broadcastTo S2000x128 (rsqrt (addf (shapeCast S1x128 x3 shapeCasts_S1x128_S1x128) (broadcast S1x128 (Scalar.ofBits .f32 0x3727C5AC#32)))) broadcasts_S1x128_S2000x128))
            (broadcastTo S2000x128 (shapeCast S1x128 x4 shapeCasts_S1x128_S1x128) broadcasts_S1x128_S2000x128))
        (broadcastTo S2000x128 (shapeCast S1x128 x5 shapeCasts_S1x128_S1x128) broadcasts_S1x128_S2000x128)))
    (mulf (broadcast S2000x128 (Scalar.ofBits .f32 0x3DCCCCCD#32)) x1)

/-- The payload is half the blended block plus half its product with the weight block, both operands of the product
    narrowed (the identity on the extended reals). -/
theorem pay_eq (x0 x1 : Vec Ideal S2000x128 .f32) (x2 x3 x4 x5 : Vec Ideal S1x128 .f32) (x6 : Vec Ideal S128x128 .f32) :
    k1_pay2 x0 x2 x3 x4 x5 x1 x6
      = addf (mulf (broadcast S2000x128 (Scalar.ofBits .f32 0x3F000000#32)) (mixBlk x0 x1 x2 x3 x4 x5))
          (mulf (broadcast S2000x128 (Scalar.ofBits .f32 0x3F000000#32))
            (matmul dot_S2000x128_S128x128_S2000x128_1_0_0_1_n_n none (truncf .bf16 (mixBlk x0 x1 x2 x3 x4 x5) bitsLt_bf16_f32)
              (truncf .bf16 (shapeCast S128x128 x6 shapeCasts_S128x128_S128x128) bitsLt_bf16_f32)
              (constant (F := Ideal) S2000x128 .f32 0x00000000#32))) := rfl

/-- The blended block at an entry. -/
theorem mixBlk_at (x0 x1 : Vec Ideal S2000x128 .f32) (x2 x3 x4 x5 : Vec Ideal S1x128 .f32) (p : Fin 2000) (q : Fin 128) :
    mixBlk x0 x1 x2 x3 x4 x5 (ix2 p q) = mixAt x0 x1 x2 x3 x4 x5 p q := by
  unfold mixBlk mixAt
  rw [shapeCast_self, shapeCast_self, shapeCast_self, shapeCast_self, shapeCast_self]
  simp only [addf_apply, mulf_apply, subf_apply, broadcast_apply]
  rw [broadcastTo_1b_ab_apply, broadcastTo_1b_ab_apply, broadcastTo_1b_ab_apply, broadcastTo_1b_ab_apply]
  rfl

/-- THE PAYLOAD AT AN ENTRY: half the blended entry plus half the blended row against the weight's column, rectified. -/
theorem pay_at (x0 x1 : Vec Ideal S2000x128 .f32) (x2 x3 x4 x5 : Vec Ideal S1x128 .f32) (x6 : Vec Ideal S128x128 .f32)
    (p : Fin 2000) (q : Fin 128) :
    k1_pay1 (k1_pay2 x0 x2 x3 x4 x5 x1 x6) (k1_pay3 (F := Ideal)) (ix2 p q)
      = max (c5 * mixAt x0 x1 x2 x3 x4 x5 p q + c5 * ∑ k : Fin 128, mixAt x0 x1 x2 x3 x4 x5 p k * x6 (ix2 k q)) zero := by
  rw [pay_eq]
  show max (c5 * mixBlk x0 x1 x2 x3 x4 x5 (ix2 p q)
      + c5 * matmul dot_S2000x128_S128x128_S2000x128_1_0_0_1_n_n none (truncf .bf16 (mixBlk x0 x1 x2 x3 x4 x5) bitsLt_bf16_f32)
              (truncf .bf16 (shapeCast S128x128 x6 shapeCasts_S128x128_S128x128) bitsLt_bf16_f32)
              (constant (F := Ideal) S2000x128 .f32 0x00000000#32) (ix2 p q)) zero = _
  rw [matmul_at, mixBlk_at, shapeCast_self]
  refine congrArg (fun s => max (c5 * mixAt x0 x1 x2 x3 x4 x5 p q + c5 * s) zero) (Finset.sum_congr rfl fun k _ => ?_)
  show mixBlk x0 x1 x2 x3 x4 x5 (ix2 p k) * x6 (ix2 k q) = _
  rw [mixBlk_at]

end Cert.KernelIdeal.KValue

end
-- ==== Proof.BlendValue.lean ====
/-
  The value of the normalise-and-blend kernel's region: after its 25 grid points the output array holds, entry by entry, the
  batch-normalise-blend-rectify function of the arrays the region finds. Each point's block is 2000 rows of the output; the
  row blocks of the two node-by-feature arrays move with it, the four per-column rows and the weight are whole at every
  point; the blocks of the 25 points tile the 50000 rows.
-/
import proofs.«159637_j21912923144342_2_alg».proof.Proof.BlendFrame
import proofs.«159637_j21912923144342_2_alg».proof.Proof.BlendPayload
import proofs.«159637_j21912923144342_2_alg».proof.Proof.BnSpec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Frames
open Idealize.ShloMosaic Idealize.ShloMosaic.TcCoe Idealize.ShloMosaic.ValueIdx Idealize.SL.Sem
open Idealize.ShloMosaic.Pipeline (Dat)
open Cert.BnBlend (eps c9 c1 c5 zero)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The function the output array ends holding. -/
abbrev outFn (c : Dev nD) : S50000x128.Idx → EReal :=
  Cert.BnBlend.out (V c main_v11) (V c main_arg1) (fun i => V c main_v15 (ix2 (i 1) (i 0)))
    (fun i => V c main_v13 (ix2 (0 : Fin 1) (i 0))) (fun i => V c main_v14 (ix2 (0 : Fin 1) (i 0)))
    (fun j => V c main_v12_0 (ix2 (0 : Fin 1) j)) (fun j => V c main_v12_1 (ix2 (0 : Fin 1) j))

/-- The windows' index maps at every grid point, decided over the 25 points: the row-block windows sit at block row `t`, the others at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-! ## Each input block read where the output's block says -/

/-- Entry (p, q) of point `t`'s block of the summed array is the array's entry in row 2000 t + p. -/
theorem blk0_at (c : Dev nD) (t : Fin cfg1.N) (p : Fin 2000) (q : Fin 128) (r : Fin 50000) (hr : r.val = t.val * 2000 + p.val) :
    (blk1 V c 0 t : Vec Ideal S2000x128 .f32) (ix2 p q) = (V c main_v11 : S50000x128.Idx → EReal) (ix2 r q) := by
  obtain ⟨a0, a1, b0, b1, -⟩ := idx_facts t
  unfold blk1
  rw [View.read_apply]
  show (V c main_v11 : S50000x128.Idx → EReal) (((cfg1.win 0).blk t).view.emb (ix2 p q)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * q.val = q.val; omega

/-- Entry (p, q) of point `t`'s block of the second array is the array's entry in row 2000 t + p. -/
theorem blk1_at (c : Dev nD) (t : Fin cfg1.N) (p : Fin 2000) (q : Fin 128) (r : Fin 50000) (hr : r.val = t.val * 2000 + p.val) :
    (blk1 V c 1 t : Vec Ideal S2000x128 .f32) (ix2 p q) = (V c main_arg1 : S50000x128.Idx → EReal) (ix2 r q) := by
  obtain ⟨a0, a1, b0, b1, -⟩ := idx_facts t
  unfold blk1
  rw [View.read_apply]
  show (V c main_arg1 : S50000x128.Idx → EReal) (((cfg1.win 1).blk t).view.emb (ix2 p q)) = _
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * q.val = q.val; omega

/-! The per-column rows and the weight are one block each: the block is the array. -/

theorem blk2_eq (c : Dev nD) (t : Fin cfg1.N) (y : S1x128.Idx) :
    (blk1 V c 2 t : Vec Ideal S1x128 .f32) y = (V c main_v12_0 : S1x128.Idx → EReal) y := by
  obtain ⟨-, -, -, -, -, -, a0, a1, b0, b1, d0, d1, e0, e1, f0, f1⟩ := idx_facts t
  unfold blk1
  rw [View.read_apply]
  show (V c main_v12_0 : S1x128.Idx → EReal) (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem blk3_eq (c : Dev nD) (t : Fin cfg1.N) (y : S1x128.Idx) :
    (blk1 V c 3 t : Vec Ideal S1x128 .f32) y = (V c main_v12_1 : S1x128.Idx → EReal) y := by
  obtain ⟨-, -, -, -, -, -, a0, a1, b0, b1, d0, d1, e0, e1, f0, f1⟩ := idx_facts t
  unfold blk1
  rw [View.read_apply]
  show (V c main_v12_1 : S1x128.Idx → EReal) (((cfg1.win 3).blk t).view.emb y) = _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem blk4_eq (c : Dev nD) (t : Fin cfg1.N) (y : S1x128.Idx) :
    (blk1 V c 4 t : Vec Ideal S1x128 .f32) y = (V c main_v13 : S1x128.Idx → EReal) y := by
  obtain ⟨-, -, -, -, -, -, a0, a1, b0, b1, d0, d1, e0, e1, f0, f1⟩ := idx_facts t
  unfold blk1
  rw [View.read_apply]
  show (V c main_v13 : S1x128.Idx → EReal) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem blk5_eq (c : Dev nD) (t : Fin cfg1.N) (y : S1x128.Idx) :
    (blk1 V c 5 t : Vec Ideal S1x128 .f32) y = (V c main_v14 : S1x128.Idx → EReal) y := by
  obtain ⟨-, -, -, -, -, -, a0, a1, b0, b1, d0, d1, e0, e1, f0, f1⟩ := idx_facts t
  unfold blk1
  rw [View.read_apply]
  show (V c main_v14 : S1x128.Idx → EReal) (((cfg1.win 5).blk t).view.emb y) = _
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

theorem blk6_eq (c : Dev nD) (t : Fin cfg1.N) (y : S128x128.Idx) :
    (blk1 V c 6 t : Vec Ideal S128x128 .f32) y = (V c main_v15 : S128x128.Idx → EReal) y := by
  obtain ⟨-, -, -, -, -, -, a0, a1, b0, b1, d0, d1, e0, e1, f0, f1⟩ := idx_facts t
  unfold blk1
  rw [View.read_apply]
  show (V c main_v15 : S128x128.Idx → EReal) (((cfg1.win 6).blk t).view.emb y) = _
  refine congrArg _ (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- The kernel's blended entry is the specification's, once each block entry is read as its array's. -/
theorem mixAt_eq_blend (H X : Cert.BnBlend.ShNF.Idx → EReal) (g b : Cert.BnBlend.ShF.Idx → EReal) (mu v : Fin 128 → EReal)
    (x0 x1 : Vec Ideal S2000x128 .f32) (x2 x3 x4 x5 : Vec Ideal S1x128 .f32) (p : Fin 2000) (r : Fin 50000)
    (h0 : ∀ q, x0 (ix2 p q) = H (ix2 r q)) (h1 : ∀ q, x1 (ix2 p q) = X (ix2 r q))
    (h2 : ∀ q, x2 (ix2 (0 : Fin 1) q) = mu q) (h3 : ∀ q, x3 (ix2 (0 : Fin 1) q) = v q)
    (h4 : ∀ q, x4 (ix2 (0 : Fin 1) q) = g (ix1 q)) (h5 : ∀ q, x5 (ix2 (0 : Fin 1) q) = b (ix1 q)) (q : Fin 128) :
    mixAt x0 x1 x2 x3 x4 x5 p q = Cert.BnBlend.blend H X g b mu v r q := by
  unfold mixAt Cert.BnBlend.blend
  rw [h0, h1, h2, h3, h4, h5]

/-- WHAT POINT `t` WRITES BACK is block `t` of the function of the arrays the region finds. -/
theorem flushed_eq (c : Dev nD) (t : Fin cfg1.N) :
    (dat1 (F := Ideal) V c).flushed 7 t = ((cfg1.win 7).blk t).view.read (Elt Ideal) (outFn V c) := by
  show (cfg1.win 7).cut (grid1.coords t) ((dat1 V c).after 7 t) = _
  rw [after1_7]
  unfold outBlk
  rw [View.canon_unit_zero hz]
  simp only [View.ld_unit_zero (S := S2000x128) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  have ht : t.val < 25 := t.isLt
  obtain ⟨-, -, -, -, o0, o1, -⟩ := idx_facts t
  obtain ⟨r, hr⟩ : ∃ r : Fin 50000, r.val = t.val * 2000 + p.val := ⟨⟨t.val * 2000 + p.val, by omega⟩, rfl⟩
  have hi : ((cfg1.win 7).blk t).view.emb (ix2 p q) = (ix2 r q : S50000x128.Idx) := by
    refine funext fun a => Fin.ext ?_
    match a with
    | ⟨0, _⟩ => show win1_7.index t (0 : Fin 2) * 2000 + 1 * p.val = r.val; omega
    | ⟨1, _⟩ => show win1_7.index t (1 : Fin 2) * 128 + 1 * q.val = q.val; omega
  show k1_pay1 (k1_pay2 (blk1 V c 0 t) (blk1 V c 2 t) (blk1 V c 3 t) (blk1 V c 4 t) (blk1 V c 5 t) (blk1 V c 1 t) (blk1 V c 6 t)) (k1_pay3 (F := Ideal)) (ix2 p q)
    = outFn V c (((cfg1.win 7).blk t).view.emb (ix2 p q))
  rw [hi]
  refine (pay_at _ _ _ _ _ _ _ p q).trans ?_
  have hm : ∀ k : Fin 128, mixAt (blk1 V c 0 t) (blk1 V c 1 t) (blk1 V c 2 t) (blk1 V c 3 t) (blk1 V c 4 t) (blk1 V c 5 t) p k
      = Cert.BnBlend.blend (V c main_v11) (V c main_arg1) (fun i => V c main_v13 (ix2 (0 : Fin 1) (i 0)))
          (fun i => V c main_v14 (ix2 (0 : Fin 1) (i 0))) (fun j => V c main_v12_0 (ix2 (0 : Fin 1) j))
          (fun j => V c main_v12_1 (ix2 (0 : Fin 1) j)) r k :=
    mixAt_eq_blend _ _ _ _ _ _ _ _ _ _ _ _ p r (fun q' => blk0_at V c t p q' r hr) (fun q' => blk1_at V c t p q' r hr)
      (fun q' => blk2_eq V c t _) (fun q' => blk3_eq V c t _) (fun q' => blk4_eq V c t _) (fun q' => blk5_eq V c t _)
  rw [hm q]
  refine congrArg (fun s => max (c5 * _ + c5 * s) zero) (Finset.sum_congr rfl fun k _ => ?_)
  rw [hm k, blk6_eq]

/-! ## The blocks tile the rows -/

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v16).slice (win1_7.rect t)).set ↔ _
  rw [View.set_slice_whole, Rect.mem_set_unit]
  exact Iff.rfl

/-- Row `r` lies in the block of point `r / 2000`, and every point writes its block back. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by show _ < 25; omega⟩, rfl⟩
  obtain ⟨-, -, -, -, o0, o1, -⟩ := idx_facts t
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-! ## The array after the region -/

/-- THE OUTPUT ARRAY after the 25 points: the batch-normalise-blend-rectify function of the arrays the region finds, with the
    weight read transposed, the per-column rows read along their one row. -/
theorem blend_final (c : Dev nD) :
    (dat1 (F := Ideal) V c).arrAt 7 cfg1.N
      = Cert.BnBlend.out (V c main_v11) (V c main_arg1) (fun i => V c main_v15 (ix2 (i 1) (i 0)))
          (fun i => V c main_v13 (ix2 (0 : Fin 1) (i 0))) (fun i => V c main_v14 (ix2 (0 : Fin 1) (i 0)))
          (fun j => V c main_v12_0 (ix2 (0 : Fin 1) j)) (fun j => V c main_v12_1 (ix2 (0 : Fin 1) j)) :=
  (dat1 (F := Ideal) V c).arrAt_eq_of_cover 7 (outFn V c) (fun t _ => flushed_eq V c t) cover

end Cert.KernelIdeal.KValue

end
-- ==== Proof.KernelResult.lean ====
/-
  The kernel program's result array as one function of its arguments, on the extended reals.

  The array the first host stretch builds (the segment sums `h`) reaches both regions unchanged; the statistics region
  leaves the scaled column totals of `h` and the moment form of their spread; two reshapes and a transpose pass the scale,
  the shift and the weight on; the blend region then writes, block by block, the normalised, blended and rectified array.
-/
import proofs.«159637_j21912923144342_2_alg».proof.Proof.MainRun
import proofs.«159637_j21912923144342_2_alg».proof.Proof.StatsFinal
import proofs.«159637_j21912923144342_2_alg».proof.Proof.BlendValue
import proofs.«159637_j21912923144342_2_alg».proof.Proof.Gen.ReferenceIdeal.Read
import Idealize.ShloMosaic.Lib.StableHlo.Run
import Idealize.ShloMosaic.Lib.ValueLayout

set_option maxRecDepth 16384

noncomputable section

namespace Cert.KernelIdeal.KValue

open Cert.KernelIdeal Cert.KernelIdeal.Gen Cert.KernelIdeal.Frames
open Idealize.ShloMosaic Idealize.ShloMosaic.TcCoe Idealize.ShloMosaic.ValueIdx
open Idealize.SL Idealize.SL.Sem
open Idealize.ShloMosaic.Pipeline (Dat Cfg Window)
open scoped BigOperators

open Cert.BnBlend

variable (m : (ℓ : Loc nD τ sig) → Buf (Elt Ideal) ℓ) (ρ : Dev nD → PrngReg)

/-- The segment sums: what the first host stretch leaves in its last buffer. -/
abbrev segSums (c : Dev nD) : ShNF.Idx → EReal := V1 (F := Ideal) m ρ c main_v11

/-- They are the reference's segment sums: the same host operations of the same arguments. -/
theorem sums_same (c : Dev nD) :
    segSums m ρ c
      = Cert.ReferenceIdeal.Read.val_main_v11 (F := Ideal) (m ((c : Thread nD τ).loc main_arg0)) (m ((c : Thread nD τ).loc main_arg2))
          (m ((c : Thread nD τ).loc main_arg6)) (m ((c : Thread nD τ).loc main_arg7)) := by
  show StableHlo.after hostOps0 (W0 (F := Ideal) m ρ c) (Proc.devRef .tc main_v11) = _
  after_results
  rfl

/-! ## The arrays the blend region finds -/

theorem W2_main_arg1 (c : Dev nD) : W2 (F := Ideal) m ρ c (Proc.devRef .tc main_arg1) = m ((c : Thread nD τ).loc main_arg1) :=
  calc W2 (F := Ideal) m ρ c (Proc.devRef .tc main_arg1)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W2_main_arg3 (c : Dev nD) : W2 (F := Ideal) m ρ c (Proc.devRef .tc main_arg3) = m ((c : Thread nD τ).loc main_arg3) :=
  calc W2 (F := Ideal) m ρ c (Proc.devRef .tc main_arg3)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W2_main_arg4 (c : Dev nD) : W2 (F := Ideal) m ρ c (Proc.devRef .tc main_arg4) = m ((c : Thread nD τ).loc main_arg4) :=
  calc W2 (F := Ideal) m ρ c (Proc.devRef .tc main_arg4)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W2_main_arg5 (c : Dev nD) : W2 (F := Ideal) m ρ c (Proc.devRef .tc main_arg5) = m ((c : Thread nD τ).loc main_arg5) :=
  calc W2 (F := Ideal) m ρ c (Proc.devRef .tc main_arg5)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem V3_sums (c : Dev nD) : V3 (F := Ideal) m ρ c main_v11 = segSums m ρ c :=
  calc W3 (F := Ideal) m ρ c (Proc.devRef .tc main_v11)
    _ = W2 m ρ c (Proc.devRef .tc main_v11) := StableHlo.after_of_writes_sub hostOps1 _ hostOps1_writes (by decide)
    _ = V1 m ρ c main_v11 := (W2_arr m ρ c 0).trans (((dat0 (V1 m ρ) c).arrAt_in 0 rfl _).trans (A_eq0 (V1 m ρ) c 0))

theorem V3_second (c : Dev nD) : V3 (F := Ideal) m ρ c main_arg1 = m ((c : Thread nD τ).loc main_arg1) :=
  calc W3 (F := Ideal) m ρ c (Proc.devRef .tc main_arg1)
    _ = W2 m ρ c (Proc.devRef .tc main_arg1) := StableHlo.after_of_writes_sub hostOps1 _ hostOps1_writes (by decide)
    _ = m ((c : Thread nD τ).loc main_arg1) := W2_main_arg1 m ρ c

theorem V3_centre (c : Dev nD) : V3 (F := Ideal) m ρ c main_v12_0 = centreRow (segSums m ρ c) :=
  calc W3 (F := Ideal) m ρ c (Proc.devRef .tc main_v12_0)
    _ = W2 m ρ c (Proc.devRef .tc main_v12_0) := StableHlo.after_of_writes_sub hostOps1 _ hostOps1_writes (by decide)
    _ = (dat0 (V1 m ρ) c).arrAt 1 cfg0.N := W2_arr m ρ c 1
    _ = centreRow (segSums m ρ c) := mean_final (V1 m ρ) c

theorem V3_spread (c : Dev nD) : V3 (F := Ideal) m ρ c main_v12_1 = spreadRow (segSums m ρ c) :=
  calc W3 (F := Ideal) m ρ c (Proc.devRef .tc main_v12_1)
    _ = W2 m ρ c (Proc.devRef .tc main_v12_1) := StableHlo.after_of_writes_sub hostOps1 _ hostOps1_writes (by decide)
    _ = (dat0 (V1 m ρ) c).arrAt 2 cfg0.N := W2_arr m ρ c 2
    _ = spreadRow (segSums m ρ c) := var_final (V1 m ρ) c

theorem V3_scale (c : Dev nD) :
    V3 (F := Ideal) m ρ c main_v13 = shapeCast S1x128 (m ((c : Thread nD τ).loc main_arg4)) shapeCasts_S128_S1x128 := by
  rw [← W2_main_arg4 m ρ c]
  show StableHlo.after hostOps1 (W2 (F := Ideal) m ρ c) (Proc.devRef .tc main_v13) = _
  after_results
  rfl

theorem V3_shift (c : Dev nD) :
    V3 (F := Ideal) m ρ c main_v14 = shapeCast S1x128 (m ((c : Thread nD τ).loc main_arg5)) shapeCasts_S128_S1x128 := by
  rw [← W2_main_arg5 m ρ c]
  show StableHlo.after hostOps1 (W2 (F := Ideal) m ρ c) (Proc.devRef .tc main_v14) = _
  after_results
  rfl

theorem V3_weight (c : Dev nD) :
    V3 (F := Ideal) m ρ c main_v15 = transpose S128x128 [1, 0] (m ((c : Thread nD τ).loc main_arg3)) transposes_S128x128_S128x128_1_0 := by
  rw [← W2_main_arg3 m ρ c]
  show StableHlo.after hostOps1 (W2 (F := Ideal) m ρ c) (Proc.devRef .tc main_v15) = _
  after_results

/-! ## The result -/

theorem kernel_result (c : Dev nD) :
    (dat1 (F := Ideal) (V3 m ρ) c).arrAt 7 cfg1.N
      = out (segSums m ρ c) (m ((c : Thread nD τ).loc main_arg1)) (m ((c : Thread nD τ).loc main_arg3))
          (m ((c : Thread nD τ).loc main_arg4)) (m ((c : Thread nD τ).loc main_arg5))
          (muScaled (segSums m ρ c)) (varMoments (segSums m ρ c)) := by
  rw [blend_final (V3 m ρ) c, V3_sums, V3_second, V3_centre, V3_spread, V3_scale, V3_shift, V3_weight]
  have eW : (fun i : ShFF.Idx => transpose S128x128 [1, 0] (m ((c : Thread nD τ).loc main_arg3)) transposes_S128x128_S128x128_1_0 (ix2 (i 1) (i 0)))
      = (m ((c : Thread nD τ).loc main_arg3) : ShFF.Idx → EReal) := funext fun i =>
    (transpose_ix2_apply _ _ (i 1) (i 0)).trans (congrArg _ (eq_ix2 i).symm)
  have eG : (fun i : ShF.Idx => shapeCast S1x128 (m ((c : Thread nD τ).loc main_arg4)) shapeCasts_S128_S1x128 (ix2 (0 : Fin 1) (i 0)))
      = (m ((c : Thread nD τ).loc main_arg4) : ShF.Idx → EReal) := funext fun i =>
    (shapeCast_a_1a_apply _ _ 0 (i 0)).trans (congrArg _ (eq_ix1 i).symm)
  have eB : (fun i : ShF.Idx => shapeCast S1x128 (m ((c : Thread nD τ).loc main_arg5)) shapeCasts_S128_S1x128 (ix2 (0 : Fin 1) (i 0)))
      = (m ((c : Thread nD τ).loc main_arg5) : ShF.Idx → EReal) := funext fun i =>
    (shapeCast_a_1a_apply _ _ 0 (i 0)).trans (congrArg _ (eq_ix1 i).symm)
  have eM : (fun j : Fin 128 => centreRow (segSums m ρ c) (ix2 (0 : Fin 1) j)) = muScaled (segSums m ρ c) := funext fun j => rfl
  have eV : (fun j : Fin 128 => spreadRow (segSums m ρ c) (ix2 (0 : Fin 1) j)) = varMoments (segSums m ρ c) := funext fun j => rfl
  rw [eW, eG, eB, eM, eV]

end Cert.KernelIdeal.KValue

end
-- ==== Proof.RefValue.lean ====
/-
  The reference program's result, read index by index, is the specification's function of the segment-sum array.

  At row r and column j the program's last value is  max (½ · y(r, j) + ½ · ∑ₖ y(r, k) · Wᵀ(k, j)) 0,  where
  y(r, j) = c₉ · (((h(r, j) − μ j) · rsqrt(v j + ε)) · g j + b j) + c₁ · x₁(r, j),   μ j = (0 + ∑ᵣ h(r, j)) / 50000   and
  v j = (0 + ∑ᵣ (h(r, j) − μ j)²) / 50000.  Each layer below reads one named intermediate array at an index: the centre, the
  squared deviation, the spread, the blended entry, the result. The broadcasts only rename indices: a per-column vector
  viewed as a 1 × 128 row and then as a 50000 × 128 array is read at the column; the transposed weight at (k, j) is the
  weight at (j, k).
-/
import proofs.«159637_j21912923144342_2_alg».proof.Proof.Gen.ReferenceIdeal.Read
import proofs.«159637_j21912923144342_2_alg».proof.Proof.BnSpec

noncomputable section

namespace Cert.ReferenceIdeal.RefValue

open Cert.ReferenceIdeal Idealize.ShloMosaic Idealize.ShloMosaic.ValueIdx Cert.BnBlend
open scoped BigOperators

/-- The literal 50000.0 denotes the real number 50000. -/
theorem ofBits_50000 : Ideal.ofBits .f32 0x47435000#32 = ((50000 : ℝ) : EReal) := by
  simp [Ideal.ofBits, Ideal.ieee, -EReal.coe_mul]; norm_num

/-! ## The broadcasts and the contraction only rename indices -/

theorem idx_col12 (j : Fin 128) (k : Fin 50000) : Read.idx_main_v12 (ix1 j) k = ix2 k j :=
  funext fun a => Fin.ext (by match a with | ⟨0, _⟩ => rfl | ⟨1, _⟩ => rfl)
theorem idx_col19 (j : Fin 128) (k : Fin 50000) : Read.idx_main_v19 (ix1 j) k = ix2 k j :=
  funext fun a => Fin.ext (by match a with | ⟨0, _⟩ => rfl | ⟨1, _⟩ => rfl)
theorem idx_row16 (r : Fin 50000) (j : Fin 128) : Read.idx_main_v15 (Read.idx_main_v16 (ix2 r j)) = ix1 j :=
  funext fun a => Fin.ext (by match a with | ⟨0, _⟩ => rfl)
theorem idx_row23 (r : Fin 50000) (j : Fin 128) : Read.idx_main_v22 (Read.idx_main_v23 (ix2 r j)) = ix1 j :=
  funext fun a => Fin.ext (by match a with | ⟨0, _⟩ => rfl)
theorem idx_row29 (r : Fin 50000) (j : Fin 128) : Read.idx_main_v28 (Read.idx_main_v29 (ix2 r j)) = ix1 j :=
  funext fun a => Fin.ext (by match a with | ⟨0, _⟩ => rfl)
theorem idx_row32 (r : Fin 50000) (j : Fin 128) : Read.idx_main_v31 (Read.idx_main_v32 (ix2 r j)) = ix1 j :=
  funext fun a => Fin.ext (by match a with | ⟨0, _⟩ => rfl)
theorem idx_row35 (r : Fin 50000) (j : Fin 128) : Read.idx_main_v34 (Read.idx_main_v35 (ix2 r j)) = ix1 j :=
  funext fun a => Fin.ext (by match a with | ⟨0, _⟩ => rfl)
theorem idx_lhs45 (r : Fin 50000) (j k : Fin 128) : Read.lidx_main_v45 (ix2 r j) k = ix2 r k :=
  funext fun a => Fin.ext (by match a with | ⟨0, _⟩ => rfl | ⟨1, _⟩ => rfl)
theorem idx_rhs45 (r : Fin 50000) (j k : Fin 128) : Read.idx_main_v44 (Read.ridx_main_v45 (ix2 r j) k) = ix2 j k :=
  funext fun a => Fin.ext (by match a with | ⟨0, _⟩ => rfl | ⟨1, _⟩ => rfl)

section Layers

variable (x0 x1 : (⟨S50000x128, .f32⟩ : BufTy).Contents (Elt Ideal)) (x2 : (⟨S800000x1, .f32⟩ : BufTy).Contents (Elt Ideal))
  (x3 : (⟨S128x128, .f32⟩ : BufTy).Contents (Elt Ideal)) (x4 x5 : (⟨S128, .f32⟩ : BufTy).Contents (Elt Ideal))
  (x6 x7 : (⟨S800000, .i32⟩ : BufTy).Contents (Elt Ideal))

/-- The centre of column j: the column sum (from the initial value 0) divided by 50000. -/
theorem mean_eq (j : Fin 128) :
    Read.val_main_v14 (F := Ideal) x0 x2 x6 x7 (ix1 j) = muDiv (Read.val_main_v11 (F := Ideal) x0 x2 x6 x7) j := by
  rw [Read.val_main_v14_apply, Read.val_main_v12_apply, Read.val_main_v13_apply, Read.val_main_cst_1_apply,
    Read.val_main_cst_2_apply]
  simp only [Ideal.hostDivf_def, Ideal.ofBits_def, Ideal.ofBits_zero_f32, zero_add, ofBits_50000, idx_col12]
  rfl

/-- The squared deviation of an entry from its column's centre. -/
theorem dev_sq_eq (r : Fin 50000) (j : Fin 128) :
    Read.val_main_v18 (F := Ideal) x0 x2 x6 x7 (ix2 r j)
      = (Read.val_main_v11 (F := Ideal) x0 x2 x6 x7 (ix2 r j) - muDiv (Read.val_main_v11 (F := Ideal) x0 x2 x6 x7) j)
        * (Read.val_main_v11 (F := Ideal) x0 x2 x6 x7 (ix2 r j) - muDiv (Read.val_main_v11 (F := Ideal) x0 x2 x6 x7) j) := by
  rw [Read.val_main_v18_apply, Read.val_main_v17_apply, Read.val_main_v16_apply, Read.val_main_v15_apply, idx_row16, mean_eq]
  simp only [Ideal.mulf_def, Ideal.subf_def]

/-- The spread of column j: the sum of the squared deviations (from 0) divided by 50000. -/
theorem var_eq (j : Fin 128) :
    Read.val_main_v21 (F := Ideal) x0 x2 x6 x7 (ix1 j) = varDev (Read.val_main_v11 (F := Ideal) x0 x2 x6 x7) j := by
  rw [Read.val_main_v21_apply, Read.val_main_v19_apply, Read.val_main_v20_apply, Read.val_main_cst_3_apply,
    Read.val_main_cst_4_apply]
  simp only [Ideal.hostDivf_def, Ideal.ofBits_def, Ideal.ofBits_zero_f32, zero_add, ofBits_50000, idx_col19, dev_sq_eq]
  rfl

/-- The normalised, scaled, shifted entry blended with the second argument. -/
theorem blend_eq (r : Fin 50000) (j : Fin 128) :
    Read.val_main_v41 (F := Ideal) x0 x1 x2 x4 x5 x6 x7 (ix2 r j)
      = blend (Read.val_main_v11 (F := Ideal) x0 x2 x6 x7) x1 x4 x5 (muDiv (Read.val_main_v11 (F := Ideal) x0 x2 x6 x7))
          (varDev (Read.val_main_v11 (F := Ideal) x0 x2 x6 x7)) r j := by
  rw [Read.val_main_v41_apply, Read.val_main_v38_apply, Read.val_main_v37_apply, Read.val_main_cst_6_apply,
    Read.val_main_v36_apply, Read.val_main_v33_apply, Read.val_main_v30_apply, Read.val_main_v24_apply,
    Read.val_main_v23_apply, Read.val_main_v22_apply, idx_row23, mean_eq,
    Read.val_main_v29_apply, Read.val_main_v28_apply, idx_row29, Read.val_main_v27_apply, Read.val_main_v26_apply, var_eq,
    Read.val_main_v25_apply, Read.val_main_cst_5_apply,
    Read.val_main_v32_apply, Read.val_main_v31_apply, idx_row32, Read.val_main_v35_apply, Read.val_main_v34_apply, idx_row35,
    Read.val_main_v40_apply, Read.val_main_v39_apply, Read.val_main_cst_7_apply]
  simp only [Ideal.addf_def, Ideal.mulf_def, Ideal.subf_def, Ideal.ofBits_def, Ideal.hostUnary_rsqrt_def]
  rfl

/-- The reference's result is the specification's function of the segment-sum array, with the centre as the column sum
    divided by 50000 and the spread as the mean squared deviation. -/
theorem ref_is_out :
    Read.val_main_v49 (F := Ideal) x0 x1 x2 x3 x4 x5 x6 x7
      = out (Read.val_main_v11 (F := Ideal) x0 x2 x6 x7) x1 x3 x4 x5 (muDiv (Read.val_main_v11 (F := Ideal) x0 x2 x6 x7))
          (varDev (Read.val_main_v11 (F := Ideal) x0 x2 x6 x7)) := by
  funext i
  obtain ⟨r, j, rfl⟩ : ∃ (r : Fin 50000) (j : Fin 128), i = ix2 r j := ⟨i 0, i 1, eq_ix2 i⟩
  rw [Read.val_main_v49_apply, Read.val_main_v48_apply, Read.val_main_v43_apply, Read.val_main_v42_apply,
    Read.val_main_cst_8_apply, Read.val_main_v47_apply, Read.val_main_v46_apply, Read.val_main_cst_9_apply,
    Read.val_main_v45_apply, Read.val_main_call0_v0_apply, Read.val_main_call0_cst_apply, blend_eq]
  simp only [idx_lhs45, blend_eq, Read.val_main_v44_apply, idx_rhs45]
  simp only [Ideal.addf_def, Ideal.mulf_def, Ideal.maximumf_def, Ideal.ofBits_def]
  rfl

end Layers

end Cert.ReferenceIdeal.RefValue

end
-- ==== Proof.Finite.lean ====
/-
  Every entry of the segment-sum array is a real number when every float input is finite.

  The precondition says, of each float argument, that  |x| < +∞  holds at every index (a conjunction of "all" reductions).
  An extended real whose absolute value  max x (−x)  is below +∞ is neither +∞ nor −∞, so it is a real number.
  The segment-sum array adds, to the constant 0, the finite sum of those update entries whose index lands on the element;
  an update entry is one entry of the first argument (whichever the gather reads) times one entry of the mask: a product
  of two reals. A finite sum of reals is a real.
-/
import proofs.«159637_j21912923144342_2_alg».proof.Proof.Gen.ReferenceIdeal.Read
import proofs.«159637_j21912923144342_2_alg».proof.Proof.Gen.Pre_finite_inputs
import Idealize.ShloMosaic.Lib.ReduceAll
import Idealize.ShloMosaic.Lib.ValueIdx

noncomputable section

namespace Cert.ReferenceIdeal.RefValue

open Cert.ReferenceIdeal Idealize.ShloMosaic Idealize.ShloMosaic.ValueIdx
open scoped BigOperators

instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One "all" reduction of the precondition, read back: every entry of the array is a real number. -/
theorem real_of_all {s : Shape} {axes : List (Fin s.rank)} (x : s.Idx → EReal)
    (hb : S_.BroadcastsInDim s (![] : Fin 0 → Fin s.rank)) (hr : s.ReducesTo axes S_) (hu : 0 < S_.numel)
    (e : Host.reduce IntOp.andi
        (cmpf .olt (Host.absf (F := Ideal) (φ := .f32) x) (broadcastInDim s ![] hb (constant (F := Ideal) S_ .f32 0x7F800000#32)))
        (constantI S_ 1 1#1) hr hu ix0 = 1#1) (i : s.Idx) : ∃ r : ℝ, x i = (r : EReal) :=
  real_of_abs_lt_inf (x i) (Host.reduce_andi_all _ _ hr hu ix0 e i)

/-- A finite sum of real numbers is a real number. -/
theorem exists_real_sum {ι : Type*} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨ra, hra⟩ := hf a (Finset.mem_insert_self a s)
    obtain ⟨rs, hrs⟩ := ih (fun j hj => hf j (Finset.mem_insert_of_mem hj))
    exact ⟨ra + rs, by rw [Finset.sum_insert ha, hra, hrs, EReal.coe_add]⟩

section Inputs

variable (x0 x1 : (⟨S50000x128, .f32⟩ : BufTy).Contents (Elt Ideal)) (x2 : (⟨S800000x1, .f32⟩ : BufTy).Contents (Elt Ideal))
  (x3 : (⟨S128x128, .f32⟩ : BufTy).Contents (Elt Ideal)) (x4 x5 : (⟨S128, .f32⟩ : BufTy).Contents (Elt Ideal))
  (x6 x7 : (⟨S800000, .i32⟩ : BufTy).Contents (Elt Ideal))

/-- The precondition's conjunction, split: the first and the third float argument are real-valued. -/
theorem inputs_finite (hp : Cert.Pre_finite_inputs.fn (F := Ideal) x0 x1 x2 x3 x4 x5 x6 x7 = fun _ => 1#1) :
    (∀ i, ∃ r : ℝ, x0 i = (r : EReal)) ∧ (∀ i, ∃ r : ℝ, x2 i = (r : EReal)) := by
  have h := congrFun hp ix0
  dsimp only [Cert.Pre_finite_inputs.fn, Cert.Pre_finite_inputs.fn_part1, andi] at h
  simp only [IntOp.andi_eq_one] at h
  obtain ⟨⟨⟨⟨⟨h0, _⟩, h2⟩, _⟩, _⟩, _⟩ := h
  exact ⟨fun i => real_of_all x0 _ _ _ h0 i, fun i => real_of_all x2 _ _ _ h2 i⟩

/-- An accumulating scatter into a real-valued array of real-valued updates is real-valued: each element is the
    operand's plus the finite sum of the updates that land on it. -/
theorem hostScatterAdd_real {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  unfold Ideal.hostScatterAdd
  obtain ⟨a, ha⟩ := hx i
  obtain ⟨b, hb⟩ := exists_real_sum (Finset.univ.filter (fun j => d.resultIdx? j idx = some i)) upd (fun j _ => hu j)
  exact ⟨a + b, by rw [ha, hb, EReal.coe_add]⟩

/-- The array the scatter starts from is the constant 0. -/
theorem base_real (i : S50000x128.Idx) : ∃ r : ℝ, Read.val_main_v9 (F := Ideal) i = (r : EReal) :=
  ⟨0, by rw [Read.val_main_v9_apply, Read.val_main_cst_apply]; exact Ideal.ofBits_zero_f32⟩

/-- An update entry is an entry of the first argument times an entry of the mask. -/
theorem update_real (hx0 : ∀ i, ∃ r : ℝ, x0 i = (r : EReal)) (hx2 : ∀ i, ∃ r : ℝ, x2 i = (r : EReal)) (j : S800000x128.Idx) :
    ∃ r : ℝ, Read.val_main_v8 (F := Ideal) x0 x2 x6 j = (r : EReal) := by
  rw [Read.val_main_v8_apply, Read.val_main_v7_apply, Ideal.mulf_def]
  have h6 : ∃ a : ℝ, Read.val_main_v6 (F := Ideal) x0 x6 j = (a : EReal) := by
    unfold Read.val_main_v6 Host.gather
    exact hx0 _
  obtain ⟨a, ha⟩ := h6
  obtain ⟨b, hb⟩ := hx2 (Read.idx_main_v7 j)
  exact ⟨a * b, by rw [ha, hb, EReal.coe_mul]⟩

/-- On the extended reals the accumulating scatter is the exact sum: the operand's element plus the updates landing on it. -/
theorem scatterAdd_ideal {s si su : Shape} (d : ScatterDims s si su) {w : Nat} (x : FVec Ideal s .f32) (idx : IVec si w)
    (upd : FVec Ideal su .f32) : Host.scatterAdd (F := Ideal) d x idx upd = Ideal.hostScatterAdd d x idx upd := rfl

/-- The segment-sum array of a real-valued first argument and a real-valued mask is real-valued. -/
theorem h_finite_of (hx0 : ∀ i, ∃ r : ℝ, x0 i = (r : EReal)) (hx2 : ∀ i, ∃ r : ℝ, x2 i = (r : EReal)) :
    ∀ i, ∃ r : ℝ, Read.val_main_v11 (F := Ideal) x0 x2 x6 x7 i = (r : EReal) := by
  intro i
  have e : Read.val_main_v11 (F := Ideal) x0 x2 x6 x7
      = Host.scatterAdd (F := Ideal) scatter_S50000x128_S800000x1_S800000x128_1_0_0_1 (Read.val_main_v9 (F := Ideal))
          (Read.val_main_v10 (F := Ideal) x7) (Read.val_main_v8 (F := Ideal) x0 x2 x6) := rfl
  rw [e, scatterAdd_ideal]
  exact hostScatterAdd_real scatter_S50000x128_S800000x1_S800000x128_1_0_0_1 (Read.val_main_v9 (F := Ideal))
    (Read.val_main_v10 (F := Ideal) x7) (Read.val_main_v8 (F := Ideal) x0 x2 x6) base_real (update_real x0 x2 x6 hx0 hx2) i

/-- Under the precondition every entry of the segment-sum array is a real number. -/
theorem h_finite (hp : Cert.Pre_finite_inputs.fn (F := Ideal) x0 x1 x2 x3 x4 x5 x6 x7 = fun _ => 1#1) :
    ∀ i, ∃ r : ℝ, Read.val_main_v11 (F := Ideal) x0 x2 x6 x7 i = (r : EReal) :=
  h_finite_of x0 x2 x6 x7 (inputs_finite x0 x1 x2 x3 x4 x5 x6 x7 hp).1 (inputs_finite x0 x1 x2 x3 x4 x5 x6 x7 hp).2

end Inputs

end Cert.ReferenceIdeal.RefValue

end
-- ==== Proof.BnLaw.lean ====
/-
  The two ways of obtaining the centre and the spread of a column agree on a real-valued array.

  For a column  a₁ … aₙ  of real numbers (n = 50000), with  S = ∑ aᵣ  and  Q = ∑ aᵣ²:
    * the centre:  S · (1/n) = S / n,  division by a nonzero real being multiplication by its reciprocal;
    * the spread:  with  μ = S / n,   ∑ (aᵣ − μ)² = Q − 2 μ S + n μ² = Q − n μ²,   hence
        (∑ (aᵣ − μ)²) / n = Q · (1/n) − μ².
  On the extended reals the identity needs every entry to be a real number (∞ − ∞ would break it), which is the hypothesis.
-/
import proofs.«159637_j21912923144342_2_alg».proof.Proof.BnSpec
import Mathlib.Tactic.Ring
import Mathlib.Tactic.NormNum
import Mathlib.Tactic.Push
import Mathlib.Algebra.BigOperators.Ring.Finset
import Mathlib.Data.EReal.Operations

noncomputable section

namespace Cert.BnBlend

open Idealize.ShloMosaic Idealize.ShloMosaic.ValueIdx
open scoped BigOperators

/-- A finite sum of (coerced) reals is the coerced real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A real-valued array is the coercion of an array of reals. -/
theorem exists_real_array (h : ShNF.Idx → EReal) (hfin : ∀ i, ∃ x : ℝ, h i = (x : EReal)) :
    ∃ a : ShNF.Idx → ℝ, ∀ i, h i = ((a i : ℝ) : EReal) :=
  ⟨fun i => (hfin i).choose, fun i => (hfin i).choose_spec⟩

/-- The centre: scaling by 1/50000 is dividing by 50000. (No finiteness needed.) -/
theorem muScaled_eq_muDiv (h : ShNF.Idx → EReal) (j : Fin 128) : muScaled h j = muDiv h j := by
  unfold muScaled muDiv
  rw [Ideal.div_coe (by norm_num : (50000 : ℝ) ≠ 0)]

/-- The column sum of a real-valued array, as a real. -/
theorem colSum_coe (a : ShNF.Idx → ℝ) (j : Fin 128) :
    colSum (fun i => ((a i : ℝ) : EReal)) j = ((∑ r : Fin 50000, a (ix2 r j) : ℝ) : EReal) := by
  unfold colSum
  exact coe_finset_sum _ _

theorem colSumSq_coe (a : ShNF.Idx → ℝ) (j : Fin 128) :
    colSumSq (fun i => ((a i : ℝ) : EReal)) j = ((∑ r : Fin 50000, a (ix2 r j) * a (ix2 r j) : ℝ) : EReal) := by
  unfold colSumSq
  simp only [← EReal.coe_mul]
  exact coe_finset_sum _ _

/-- The real identity:  (∑ (aᵣ − S/n)²)/n = Q/n − (S/n)²  for n = 50000. -/
theorem real_var_identity (f : Fin 50000 → ℝ) :
    (∑ r : Fin 50000, (f r - (∑ r, f r) * (1 / 50000)) * (f r - (∑ r, f r) * (1 / 50000))) * (1 / 50000)
      = (∑ r : Fin 50000, f r * f r) * (1 / 50000)
        - ((∑ r, f r) * (1 / 50000)) * ((∑ r, f r) * (1 / 50000)) := by
  set S := ∑ r, f r with hS
  have h1 : ∀ r : Fin 50000, (f r - S * (1 / 50000)) * (f r - S * (1 / 50000))
      = f r * f r - (2 * (S * (1 / 50000))) * f r + (S * (1 / 50000)) * (S * (1 / 50000)) := by
    intro r; ring
  simp only [h1]
  rw [Finset.sum_add_distrib, Finset.sum_sub_distrib, ← Finset.mul_sum, ← hS, Finset.sum_const, Finset.card_univ,
    Fintype.card_fin]
  simp only [nsmul_eq_mul]
  push_cast
  ring

/-- The spread: for a real-valued array,  E[h²] − (E[h])²  is the mean squared deviation from the mean. -/
theorem varMoments_eq_varDev (h : ShNF.Idx → EReal) (hfin : ∀ i, ∃ x : ℝ, h i = (x : EReal)) (j : Fin 128) :
    varMoments h j = varDev h j := by
  obtain ⟨a, ha⟩ := exists_real_array h hfin
  have hh : h = fun i => ((a i : ℝ) : EReal) := funext ha
  subst hh
  have h50 : (50000 : ℝ) ≠ 0 := by norm_num
  unfold varMoments varDev
  rw [← muScaled_eq_muDiv]
  unfold muScaled
  rw [Ideal.div_coe h50, colSum_coe, colSumSq_coe]
  simp only [← EReal.coe_mul, ← EReal.coe_sub]
  rw [coe_finset_sum, ← EReal.coe_mul]
  exact congrArg _ (real_var_identity (fun r => a (ix2 r j))).symm

end Cert.BnBlend

end
-- ==== Proof.RefMoments.lean ====
/-
  Under the precondition the reference's result is the specification's function with the centre and the spread obtained from
  the column sums of h and of h² scaled by 1/50000: every entry of the segment-sum array h is then a real number, and on a
  real-valued array the two ways of obtaining the centre and the spread agree.
-/
import proofs.«159637_j21912923144342_2_alg».proof.Proof.RefValue
import proofs.«159637_j21912923144342_2_alg».proof.Proof.Finite
import proofs.«159637_j21912923144342_2_alg».proof.Proof.BnLaw

noncomputable section

namespace Cert.ReferenceIdeal.RefValue

open Cert.ReferenceIdeal Idealize.ShloMosaic Idealize.ShloMosaic.ValueIdx Cert.BnBlend

variable (x0 x1 : (⟨S50000x128, .f32⟩ : BufTy).Contents (Elt Ideal)) (x2 : (⟨S800000x1, .f32⟩ : BufTy).Contents (Elt Ideal))
  (x3 : (⟨S128x128, .f32⟩ : BufTy).Contents (Elt Ideal)) (x4 x5 : (⟨S128, .f32⟩ : BufTy).Contents (Elt Ideal))
  (x6 x7 : (⟨S800000, .i32⟩ : BufTy).Contents (Elt Ideal))

/-- The reference's result with the centre and the spread taken from the scaled first and second moments. -/
theorem ref_is_out_moments (hp : Cert.Pre_finite_inputs.fn (F := Ideal) x0 x1 x2 x3 x4 x5 x6 x7 = fun _ => 1#1) :
    Read.val_main_v49 (F := Ideal) x0 x1 x2 x3 x4 x5 x6 x7
      = out (Read.val_main_v11 (F := Ideal) x0 x2 x6 x7) x1 x3 x4 x5 (muScaled (Read.val_main_v11 (F := Ideal) x0 x2 x6 x7))
          (varMoments (Read.val_main_v11 (F := Ideal) x0 x2 x6 x7)) := by
  have hm : muScaled (Read.val_main_v11 (F := Ideal) x0 x2 x6 x7) = muDiv (Read.val_main_v11 (F := Ideal) x0 x2 x6 x7) :=
    funext (muScaled_eq_muDiv _)
  have hv : varMoments (Read.val_main_v11 (F := Ideal) x0 x2 x6 x7) = varDev (Read.val_main_v11 (F := Ideal) x0 x2 x6 x7) :=
    funext (varMoments_eq_varDev _ (h_finite x0 x1 x2 x3 x4 x5 x6 x7 hp))
  rw [hm, hv]
  exact ref_is_out x0 x1 x2 x3 x4 x5 x6 x7

end Cert.ReferenceIdeal.RefValue

end
-- ==== Proof.lean ====
/-
  The certificate of a graph-convolution layer: segment sums of masked gathered rows, batch normalisation over the 50000
  nodes, a residual blend with the initial features, a half-and-half blend with a 128 × 128 linear map, a rectifier.

  The kernel program computes the segment sums on the host, then runs two kernel regions: the first accumulates, block by
  block over ten grid points, the column sums of the entries and of their squares in two scratch rows and at the last point
  writes the centre (the total times the exact reciprocal 1/50000, a named constant) and the spread in its moment form
  E[h²] − (E[h])²; the second normalises, blends and rectifies 2000 rows per grid point. The reference computes the same
  segment sums, divides the column totals by 50000 and takes the spread as the mean squared deviation; the rest is the same
  arithmetic in the same order.

  * The three frames: each program runs to the end without a fault and leaves its arguments unchanged — for the two
    kernel programs by the run of their four segments, for the reference by its straight-line run.
  * The idealization's two rewrites are the named reciprocal, whose value the table gives.
  * On the extended reals the two results are equal entry by entry: the segment sums are one term on both sides and, the
    float inputs being finite, every entry of it is a real number, for which the two forms of the centre agree (division by
    a nonzero real is multiplication by its reciprocal) and so do the two forms of the spread (∑ (h − μ)² = ∑ h² − n μ²).
-/
import proofs.«159637_j21912923144342_2_alg».proof.Defs
import proofs.«159637_j21912923144342_2_alg».proof.Proof.Gen.Kernel
import proofs.«159637_j21912923144342_2_alg».proof.Proof.Gen.KernelIdeal
import proofs.«159637_j21912923144342_2_alg».proof.Proof.Gen.ReferenceIdeal
import proofs.«159637_j21912923144342_2_alg».proof.Proof.Gen.Pre_finite_inputs
import proofs.«159637_j21912923144342_2_alg».proof.Proof.Gen.ReferenceIdeal.Run
import proofs.«159637_j21912923144342_2_alg».proof.Proof.Gen.ReferenceIdeal.Read
import proofs.«159637_j21912923144342_2_alg».proof.Proof.WordMainRun
import proofs.«159637_j21912923144342_2_alg».proof.Proof.MainRun
import proofs.«159637_j21912923144342_2_alg».proof.Proof.KernelResult
import proofs.«159637_j21912923144342_2_alg».proof.Proof.RefMoments
import Idealize.ShloMosaic.Adequacy
import Idealize.ShloMosaic.Init

set_option maxRecDepth 16384

noncomputable section

namespace Cert.Proof

open Idealize.ShloMosaic Idealize.ShloMosaic.TcCoe Idealize.SL.Sem
open Cert.BnBlend

theorem frame_k : Cert.frame_Kernel := fun m ρ _ => Cert.Kernel.Frames.frame_all (F := Bits) m ρ

theorem frame_ki : Cert.frame_KernelIdeal := fun m ρ _ => Cert.KernelIdeal.Frames.frame_all (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The table gives the named reciprocal the value 1/50000, at both of its sites. -/
theorem preserves : Cert.preserves_Kernel_KernelIdeal :=
  ⟨IdealRules.named_const.statement Cert.KernelIdeal.κ "inv_50000" .f32 0x37A7C5AC#32 ((1 / 50000 : ℝ) : EReal) rfl,
   IdealRules.named_const.statement Cert.KernelIdeal.κ "inv_50000" .f32 0x37A7C5AC#32 ((1 / 50000 : ℝ) : EReal) rfl⟩

theorem algebraic : Cert.algebraic_KernelIdeal_ReferenceIdeal := by
  intro m ρ m' ρ' hpre hagree
  refine ⟨fun c => out (Cert.KernelIdeal.KValue.segSums m ρ c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (muScaled (Cert.KernelIdeal.KValue.segSums m ρ c)) (varMoments (Cert.KernelIdeal.KValue.segSums m ρ c)), ?_, ?_⟩
  · exact (θ_run Cert.KernelIdeal.defs _ _).mono
      (fun r h c => ⟨(h c).1.trans (Cert.KernelIdeal.KValue.kernel_result m ρ c), (h c).2⟩)
      (Cert.KernelIdeal.Frames.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v49_eq, a0, a1, a2, a3, a4, a5, a6, a7,
      Cert.ReferenceIdeal.RefValue.ref_is_out_moments _ _ _ _ _ _ _ _ (hpre c)]
    dsimp only
    rw [Cert.KernelIdeal.KValue.sums_same m ρ c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
